-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S19x8192 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x128x128 : Shape := ⟨4, ![8, 512, 128, 128]⟩
abbrev S8x19x128x128 : Shape := ⟨4, ![8, 19, 128, 128]⟩
abbrev S_ : Shape := ⟨0, ![]⟩

class Facts : Prop where
  bcast_S_S8x512x128x128 : S_.BroadcastsInDim S8x512x128x128 (![] : Fin 0 → Fin S8x512x128x128.rank)
  reducesTo_S8x512x128x128_S_d0_1_2_3 : S8x512x128x128.ReducesTo [0, 1, 2, 3] S_
  h_S_ : 0 < S_.numel
  bcast_S_S8x19x128x128 : S_.BroadcastsInDim S8x19x128x128 (![] : Fin 0 → Fin S8x19x128x128.rank)
  reducesTo_S8x19x128x128_S_d0_1_2_3 : S8x19x128x128.ReducesTo [0, 1, 2, 3] S_

variable [Facts]

def fn {F : FTy → Type} [FloatOps F] (main_arg0 : FVec F S8x512x128x128 .f32) (main_arg1 : FVec F S8x19x128x128 .f32) : IVec S_ 1 :=
  let main_v0 : FVec F S8x512x128x128 .f32 := Host.absf main_arg0
  let main_cst : FVec F S_ .f32 := constant S_ .f32 0x7F800000#32
  let main_v1 : FVec F S8x512x128x128 .f32 := broadcastInDim S8x512x128x128 ![] bcast_S_S8x512x128x128 main_cst
  let main_v2 : IVec S8x512x128x128 1 := cmpf .olt main_v0 main_v1
  let main_c : IVec S_ 1 := constantI S_ 1 1#1
  let main_v3 : IVec S_ 1 := (fun x v => Host.reduce IntOp.andi x v reducesTo_S8x512x128x128_S_d0_1_2_3 h_S_) main_v2 main_c
  let main_v4 : FVec F S8x19x128x128 .f32 := Host.absf main_arg1
  let main_cst_0 : FVec F S_ .f32 := constant S_ .f32 0x7F800000#32
  let main_v5 : FVec F S8x19x128x128 .f32 := broadcastInDim S8x19x128x128 ![] bcast_S_S8x19x128x128 main_cst_0
  let main_v6 : IVec S8x19x128x128 1 := cmpf .olt main_v4 main_v5
  let main_c_1 : IVec S_ 1 := constantI S_ 1 1#1
  let main_v7 : IVec S_ 1 := (fun x v => Host.reduce IntOp.andi x v reducesTo_S8x19x128x128_S_d0_1_2_3 h_S_) main_v6 main_c_1
  let main_v8 : IVec S_ 1 := andi main_v3 main_v7
  main_v8
-- ==== Kernel.lean ====
abbrev S8x512x128x128 : Shape := ⟨4, ![8, 512, 128, 128]⟩
abbrev S8x19x128x128 : Shape := ⟨4, ![8, 19, 128, 128]⟩
abbrev S8x512x16384 : Shape := ⟨3, ![8, 512, 16384]⟩
abbrev S8x19x16384 : Shape := ⟨3, ![8, 19, 16384]⟩
abbrev S8x19x512 : Shape := ⟨3, ![8, 19, 512]⟩
abbrev S1x19x8192 : Shape := ⟨3, ![1, 19, 8192]⟩
abbrev S1x512x8192 : Shape := ⟨3, ![1, 512, 8192]⟩
abbrev S1x19x512 : Shape := ⟨3, ![1, 19, 512]⟩
abbrev S19x1 : Shape := ⟨2, ![19, 1]⟩
abbrev S19x512 : Shape := ⟨2, ![19, 512]⟩
abbrev S19x8192 : Shape := ⟨2, ![19, 8192]⟩
abbrev S19 : Shape := ⟨1, ![19]⟩
abbrev S1x128x8192 : Shape := ⟨3, ![1, 128, 8192]⟩
abbrev S128x8192 : Shape := ⟨2, ![128, 8192]⟩
abbrev S19x128 : Shape := ⟨2, ![19, 128]⟩
abbrev S8x512x19 : Shape := ⟨3, ![8, 512, 19]⟩
abbrev S8x512x19x1 : Shape := ⟨4, ![8, 512, 19, 1]⟩

abbrev nBuf : Space → Nat
  | .hbm => 7
  | .vmem => 9
  | .smem => 0
  | _ => 0

abbrev bufTy : (tb : Table) → Fin (tcTables nBuf tb) → BufTy
  | .hbm, ⟨0, _⟩ => ⟨S8x512x128x128, .f32⟩
  | .hbm, ⟨1, _⟩ => ⟨S8x19x128x128, .f32⟩
  | .hbm, ⟨2, _⟩ => ⟨S8x512x16384, .f32⟩
  | .hbm, ⟨3, _⟩ => ⟨S8x19x16384, .f32⟩
  | .hbm, ⟨4, _⟩ => ⟨S8x19x512, .f32⟩
  | .hbm, ⟨5, _⟩ => ⟨S8x512x19, .f32⟩
  | .hbm, ⟨6, _⟩ => ⟨S8x512x19x1, .f32⟩
  | .local _ .vmem, ⟨0, _⟩ => ⟨S1x19x8192, .f32⟩
  | .local _ .vmem, ⟨1, _⟩ => ⟨S1x19x8192, .f32⟩
  | .local _ .vmem, ⟨2, _⟩ => ⟨S1x512x8192, .f32⟩
  | .local _ .vmem, ⟨3, _⟩ => ⟨S1x512x8192, .f32⟩
  | .local _ .vmem, ⟨4, _⟩ => ⟨S1x19x512, .f32⟩
  | .local _ .vmem, ⟨5, _⟩ => ⟨S1x19x512, .f32⟩
  | .local _ .vmem, ⟨6, _⟩ => ⟨S19x1, .f32⟩
  | .local _ .vmem, ⟨7, _⟩ => ⟨S19x1, .f32⟩
  | .local _ .vmem, ⟨8, _⟩ => ⟨S19x512, .f32⟩
  | _, _ => ⟨S8x512x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

@[reducible] def k0_t1_loop : Scf.Loop 32 :=
  let c0_i32_17 : BitVec 32 := 0#32
  let c4_i32 : BitVec 32 := 4#32
  let v33 : BitVec 32 := Scalar.addi c0_i32_17 c4_i32
  let c1_i32 : BitVec 32 := 1#32
  ⟨c0_i32_17, v33, c1_i32⟩
def k0_mult1 (k0_t1 : Fin k0_t1_loop.trips) : BitVec 32 :=
  let c0_i32_24 : BitVec 32 := 0#32
  let c0_i32_17 : BitVec 32 := 0#32
  let c1_i32 : BitVec 32 := 1#32
  let arg8 : BitVec 32 := Scf.iv c0_i32_17 c1_i32 k0_t1
  let c1_i32_23 : BitVec 32 := 1#32
  let v40 : BitVec 32 := Scalar.muli arg8 c1_i32_23
  let v41 : BitVec 32 := Scalar.addi c0_i32_24 v40
  let c128_i32 : BitVec 32 := 128#32
  let v42 : BitVec 32 := Scalar.muli v41 c128_i32
  v42
def k0_off1 (k0_t1 : Fin k0_t1_loop.trips) : Fin 3 → Nat :=
  let c0_25 : Index := 0#32
  let c0_i32_24 : BitVec 32 := 0#32
  let c0_i32_17 : BitVec 32 := 0#32
  let c1_i32 : BitVec 32 := 1#32
  let arg8 : BitVec 32 := Scf.iv c0_i32_17 c1_i32 k0_t1
  let c1_i32_23 : BitVec 32 := 1#32
  let v40 : BitVec 32 := Scalar.muli arg8 c1_i32_23
  let v41 : BitVec 32 := Scalar.addi c0_i32_24 v40
  let c128_i32 : BitVec 32 := 128#32
  let v42 : BitVec 32 := Scalar.muli v41 c128_i32
  let v43 : BitVec 32 := v42
  let v44 : Index := Scalar.indexCast v43
  let c0_26 : Index := 0#32
  ![0, v44.toNat, 0]
def k0_off2 (k0_t1 : Fin k0_t1_loop.trips) : Fin 2 → Nat :=
  let c0_28 : Index := 0#32
  let c0_i32_24 : BitVec 32 := 0#32
  let c0_i32_17 : BitVec 32 := 0#32
  let c1_i32 : BitVec 32 := 1#32
  let arg8 : BitVec 32 := Scf.iv c0_i32_17 c1_i32 k0_t1
  let c1_i32_23 : BitVec 32 := 1#32
  let v40 : BitVec 32 := Scalar.muli arg8 c1_i32_23
  let v41 : BitVec 32 := Scalar.addi c0_i32_24 v40
  let c128_i32 : BitVec 32 := 128#32
  let v42 : BitVec 32 := Scalar.muli v41 c128_i32
  let v43 : BitVec 32 := v42
  let v49 : Index := Scalar.indexCast v43
  ![0, v49.toNat]
def k0_cond2 (i : grid0.Coords) : BitVec 1 :=
  let arg1 : BitVec 32 := BitVec.ofNat 32 (i 1).val
  let c1_i32_21 : BitVec 32 := 1#32
  let v37 : BitVec 1 := Scalar.cmpi .eq arg1 c1_i32_21
  let v38 : BitVec 32 := Scalar.extui v37
  let c0_i32_22 : BitVec 32 := 0#32
  let v39 : BitVec 1 := Scalar.cmpi .ne v38 c0_i32_22
  v39

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x19x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x19x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S8x512x128x128_S8x512x16384 : S8x512x128x128.ShapeCasts S8x512x16384
  shapeCasts_S8x19x128x128_S8x19x16384 : S8x19x128x128.ShapeCasts S8x19x16384
  inb_S19x1_S19x1_0_0 : ∀ a, (![0, 0] : Fin 2 → Nat) a + S19x1.size a ≤ S19x1.size a
  h_S19x1 : 0 < S19x1.numel
  shapeCasts_S19x1_S19x1 : S19x1.ShapeCasts S19x1
  inb_S19x512_S19x512_0_0 : ∀ a, (![0, 0] : Fin 2 → Nat) a + S19x512.size a ≤ S19x512.size a
  h_S19x512 : 0 < S19x512.numel
  shapeCasts_S19x512_S19x512 : S19x512.ShapeCasts S19x512
  inb_S1x19x8192_S1x19x8192_0_0_0 : ∀ a, (![0, 0, 0] : Fin 3 → Nat) a + S1x19x8192.size a ≤ S1x19x8192.size a
  h_S1x19x8192 : 0 < S1x19x8192.numel
  shapeCasts_S1x19x8192_S19x8192 : S1x19x8192.ShapeCasts S19x8192
  reduces_S19x8192_S19 : S19x8192.Reduces [1] S19
  shapeCasts_S19_S19x1 : S19.ShapeCasts S19x1
  broadcasts_S19x1_S19x8192 : S19x1.Broadcasts S19x8192
  bitsLt_bf16_f32 : FTy.bits .bf16 < FTy.bits .f32
  broadcasts_S19x1_S19x512 : S19x1.Broadcasts S19x512
  h_S1x128x8192 : 0 < S1x128x8192.numel
  shapeCasts_S1x128x8192_S128x8192 : S1x128x8192.ShapeCasts S128x8192
  h_S19x128 : 0 < S19x128.numel
  shapeCasts_S19x128_S19x128 : S19x128.ShapeCasts S19x128
  inb_S1x19x512_S1x19x512_0_0_0 : ∀ a, (![0, 0, 0] : Fin 3 → Nat) a + S1x19x512.size a ≤ S1x19x512.size a
  h_S1x19x512 : 0 < S1x19x512.numel
  shapeCasts_S1x19x512_S19x512 : S1x19x512.ShapeCasts S19x512
  shapeCasts_S19x512_S1x19x512 : S19x512.ShapeCasts S1x19x512
  transposes_S8x19x512_S8x512x19_0_2_1 : S8x19x512.Transposes [0, 2, 1] S8x512x19
  bcast_S8x512x19_S8x512x19x1_0_1_2 : S8x512x19.BroadcastsInDim S8x512x19x1 (![0, 1, 2] : Fin 3 → Fin S8x512x19x1.rank)
  dot_S19x8192_S128x8192_S19x128_1_1_0_0_n_n_wf : DotDims.WF S19x8192 S128x8192 S19x128 [1] [1] [0] [0] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S1x128x8192.size a ≤ S1x512x8192.size a
  k0_off2_inb : ∀ k0_t1 : Fin k0_t1_loop.trips, ∀ a, (k0_off2 k0_t1) a + S19x128.size a ≤ S19x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x19x8192.size a ≤ S8x19x16384.size a
  hwx0_0 : ∀ i : grid0.Coords, EltTy.bits .f32 = 32 ∨ (Rect.block (s := S8x19x16384) S1x19x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x8192.size a ≤ S8x512x16384.size a
  hwx0_1 : ∀ i : grid0.Coords, EltTy.bits .f32 = 32 ∨ (Rect.block (s := S8x512x16384) S1x512x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x19x512.size a ≤ S8x19x512.size a
  hwx0_2 : ∀ i : grid0.Coords, EltTy.bits .f32 = 32 ∨ (Rect.block (s := S8x19x512) S1x19x512.size (cc0_transform_2 i) (hinb0_2 i)).WholeWords (EltTy.packing .f32)

variable [Facts₀]

def dot_S19x8192_S128x8192_S19x128_1_1_0_0_n_n : DotDims S19x8192 S128x8192 S19x128 where
  lhsContracting := [1]
  rhsContracting := [1]
  lhsNonContracting := [0]
  rhsNonContracting := [0]
  lhsBatch := []
  rhsBatch := []
  wf := dot_S19x8192_S128x8192_S19x128_1_1_0_0_n_n_wf

abbrev win0_0 : Pipeline.Window sig grid0 :=
  Pipeline.Window.ofSpec (Memref.whole main_v1) S1x19x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x19x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x512x128x128 : Shape := ⟨4, ![8, 512, 128, 128]⟩
abbrev S8x19x128x128 : Shape := ⟨4, ![8, 19, 128, 128]⟩
abbrev S8x19x16384 : Shape := ⟨3, ![8, 19, 16384]⟩
abbrev S8x512x16384 : Shape := ⟨3, ![8, 512, 16384]⟩
abbrev S_ : Shape := ⟨0, ![]⟩
abbrev S8x19 : Shape := ⟨2, ![8, 19]⟩
abbrev S8x19x1 : Shape := ⟨3, ![8, 19, 1]⟩
abbrev S8x19x512 : Shape := ⟨3, ![8, 19, 512]⟩
abbrev S8x512x19 : Shape := ⟨3, ![8, 512, 19]⟩
abbrev S8x512x19x1 : Shape := ⟨4, ![8, 512, 19, 1]⟩

abbrev nBuf : Space → Nat
  | .hbm => 24
  | .vmem => 0
  | .smem => 0
  | _ => 0

abbrev bufTy : (tb : Table) → Fin (tcTables nBuf tb) → BufTy
  | .hbm, ⟨0, _⟩ => ⟨S8x512x128x128, .f32⟩
  | .hbm, ⟨1, _⟩ => ⟨S8x19x128x128, .f32⟩
  | .hbm, ⟨2, _⟩ => ⟨S8x19x16384, .f32⟩
  | .hbm, ⟨3, _⟩ => ⟨S8x512x16384, .f32⟩
  | .hbm, ⟨4, _⟩ => ⟨S_, .f32⟩
  | .hbm, ⟨5, _⟩ => ⟨S8x19x16384, .f32⟩
  | .hbm, ⟨6, _⟩ => ⟨S8x19x16384, .f32⟩
  | .hbm, ⟨7, _⟩ => ⟨S_, .f32⟩
  | .hbm, ⟨8, _⟩ => ⟨S8x19, .f32⟩
  | .hbm, ⟨9, _⟩ => ⟨S_, .f32⟩
  | .hbm, ⟨10, _⟩ => ⟨S8x19, .f32⟩
  | .hbm, ⟨11, _⟩ => ⟨S8x19, .f32⟩
  | .hbm, ⟨12, _⟩ => ⟨S8x19x1, .f32⟩
  | .hbm, ⟨13, _⟩ => ⟨S8x19x16384, .f32⟩
  | .hbm, ⟨14, _⟩ => ⟨S8x19x16384, .f32⟩
  | .hbm, ⟨15, _⟩ => ⟨S8x19x16384, .f32⟩
  | .hbm, ⟨16, _⟩ => ⟨S_, .f32⟩
  | .hbm, ⟨17, _⟩ => ⟨S8x19, .f32⟩
  | .hbm, ⟨18, _⟩ => ⟨S8x19x1, .f32⟩
  | .hbm, ⟨19, _⟩ => ⟨S8x19x16384, .f32⟩
  | .hbm, ⟨20, _⟩ => ⟨S8x19x16384, .f32⟩
  | .hbm, ⟨21, _⟩ => ⟨S8x19x512, .f32⟩
  | .hbm, ⟨22, _⟩ => ⟨S8x512x19, .f32⟩
  | .hbm, ⟨23, _⟩ => ⟨S8x512x19x1, .f32⟩
  | _, _ => ⟨S8x512x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  shapeCasts_S8x19x128x128_S8x19x16384 : S8x19x128x128.ShapeCasts S8x19x16384
  shapeCasts_S8x512x128x128_S8x512x16384 : S8x512x128x128.ShapeCasts S8x512x16384
  bcast_S_S8x19x16384 : S_.BroadcastsInDim S8x19x16384 (![] : Fin 0 → Fin S8x19x16384.rank)
  reducesTo_S8x19x16384_S8x19_d2 : S8x19x16384.ReducesTo [2] S8x19
  h_S_ : 0 < S_.numel
  bcast_S_S8x19 : S_.BroadcastsInDim S8x19 (![] : Fin 0 → Fin S8x19.rank)
  bcast_S8x19_S8x19x1_0_1 : S8x19.BroadcastsInDim S8x19x1 (![0, 1] : Fin 2 → Fin S8x19x1.rank)
  bcast_S8x19x1_S8x19x16384_0_1_2 : S8x19x1.BroadcastsInDim S8x19x16384 (![0, 1, 2] : Fin 3 → Fin S8x19x16384.rank)
  transposes_S8x19x512_S8x512x19_0_2_1 : S8x19x512.Transposes [0, 2, 1] S8x512x19
  bcast_S8x512x19_S8x512x19x1_0_1_2 : S8x512x19.BroadcastsInDim S8x512x19x1 (![0, 1, 2] : Fin 3 → Fin S8x512x19x1.rank)
  dot_S8x19x16384_S8x512x16384_S8x19x512_2_2_1_1_0_0_wf : DotDims.WF S8x19x16384 S8x512x16384 S8x19x512 [2] [2] [1] [1] [0] [0]

variable [Facts₀]

def dot_S8x19x16384_S8x512x16384_S8x19x512_2_2_1_1_0_0 : DotDims S8x19x16384 S8x512x16384 S8x19x512 where
  lhsContracting := [2]
  rhsContracting := [2]
  lhsNonContracting := [1]
  rhsNonContracting := [1]
  lhsBatch := [0]
  rhsBatch := [0]
  wf := dot_S8x19x16384_S8x512x16384_S8x19x512_2_2_1_1_0_0_wf

class Facts : Prop extends Facts₀ where

variable [Facts]
-- ==== Proof.KShared.lean ====
/-
  What the two cases of the kernel body share: the body's two branch conditions in closed form over the grid
  (the first half of a batch entry is the even points, the second half the odd ones), where the output window is
  idle, the staging and scratch memrefs by name, and the region invariant spelt over the three scratch buffers
  (running maximum, running denominator, running numerator).
-/
import proofs.«106281_j5669356833568_2_alg».proof.Proof.Gen.Kernel.Frame
import proofs.«106281_j5669356833568_2_alg».proof.Proof.Gen.Kernel.Loops
import proofs.«106281_j5669356833568_2_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first branch is taken at the first half of a batch entry: there the three scratch buffers are reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 2 = 0 :=
  (by decide +kernel : ∀ t : Fin grid0.N, cond0_0 (grid0.coords t) ↔ t.val % 2 = 0)

/-- The second branch is taken at the second half: there the quotient is stored into the output block. -/
abbrev cond0_1 (i : grid0.Coords) : Prop := k0_cond2 i = 1#1
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- At a first half the output block is not stored into, -/
theorem idleAt0_2_A : ∀ t : Fin cfg0.N, cond0_0 (grid0.coords t) → ¬cond0_1 (grid0.coords t) → cfg0.idle 2 (grid0.coords t) = true := by decide +kernel
/-- and not written back. -/
theorem noFlush0_2_A : ∀ t : Fin cfg0.N, cond0_0 (grid0.coords t) → ¬cond0_1 (grid0.coords t) → (cfg0.win 2).flush t = false := by decide +kernel
/-- At a second half it is stored into. -/
theorem liveAt0_2_B : ∀ t : Fin cfg0.N, ¬cond0_0 (grid0.coords t) → cond0_1 (grid0.coords t) → cfg0.idle 2 (grid0.coords t) = false := by decide +kernel

/-! ## The memrefs -/

abbrev VO0_2 : View sig .tc .vmem S1x19x512 .f32 := (Memref.whole cc0_stg2_0 : Memref sig .tc .vmem S1x19x512 .f32).view
abbrev ms0_0 (t : Fin cfg0.N) : Memref sig .tc .vmem S1x19x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x19x512 .f32 := win0_2.stage (cfg0.slots t 2)
abbrev hs0_2 (t : Fin cfg0.N) : (ms0_2 t).IsWhole := hstage0_2 ((cfg0.slots t 2).cast nbuf0_2)
/-- The running maximum, the running denominator, the running numerator. -/
abbrev scM0_0 : Memref sig .tc .vmem S19x1 .f32 := Memref.whole cc0_scratch0
abbrev scM0_1 : Memref sig .tc .vmem S19x1 .f32 := Memref.whole cc0_scratch1
abbrev scM0_2 : Memref sig .tc .vmem S19x512 .f32 := Memref.whole cc0_scratch2
abbrev VS0_0 : View sig .tc .vmem S19x1 .f32 := scM0_0.view
abbrev VS0_1 : View sig .tc .vmem S19x1 .f32 := scM0_1.view
abbrev VS0_2 : View sig .tc .vmem S19x512 .f32 := scM0_2.view

/-- The region invariant with the three scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Body

end
-- ==== Proof.KRunA.lean ====
/-
  The kernel body at the first half of a batch entry: the three scratch buffers are reset (−∞, 0, 0), the half's
  maximum, rescaling factor and weights are computed, the denominator and the numerator are updated — the numerator
  in four column chunks by a counted loop —, and the output block is left untouched.
-/
import proofs.«106281_j5669356833568_2_alg».proof.Proof.KShared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in each scratch buffer at a first half, with the body's triple on whole memrefs: the two
    input blocks at their contents, the output's buffer handed back untouched, every scratch buffer at anything. -/
noncomputable def kernelRun0_A (c : Dev nD) (i : grid0.Coords) (arg2 : Memref sig .tc .vmem S1x19x8192 .f32) (harg2 : arg2.IsWhole) (arg3 : Memref sig .tc .vmem S1x512x8192 .f32) (harg3 : arg3.IsWhole) (arg4 : Memref sig .tc .vmem S1x19x512 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : cond0_0 i) (hc1 : ¬cond0_1 i)
    (x0 : Vec F S1x19x8192 .f32) (x1 : Vec F S1x512x8192 .f32) :
    Σ' (LS0 : List (View.Piece (Elt F) S19x1 .f32)) (LS1 : List (View.Piece (Elt F) S19x1 .f32)), { LS2 : List (View.Piece (Elt F) S19x512 .f32) //
      ∀ (xi2 : Vec F S1x19x512 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)
                ∗ (∃ f, arg7.view.loc (c : Thread nD τ) ↦[arg7.view.set]{fullShare} arg7.view.writes (Elt F) f LS2)) -∗ K ⟨⟩))
          ⊢ wp frame (wpE (defs₀ (F := F)) Variants.none c none) E (cc0__spatial_gather_kernel i arg2 harg2 arg3 harg3 arg4 harg4 arg5 harg5 arg6 harg6 arg7 harg7) K } := by
  refine ⟨?_, ?_, ?_, fun xi2 E K => ?run⟩
  case run =>
    simp only [cc0__spatial_gather_kernel_eq_skeleton]; unfold cc0__spatial_gather_kernel_skel
    simp only [k0_part1_eq_skeleton]; unfold k0_part1_skel
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    iexists _; iexact HS2

end Cert.Kernel.Body

end
-- ==== Proof.KRunB.lean ====
/-
  The kernel body at the second half of a batch entry: the scratch buffers hold what the first half left (running
  maximum, denominator, numerator); they are updated with this half's scores, and the quotient numerator / denominator
  is stored into the output block.
-/
import proofs.«106281_j5669356833568_2_alg».proof.Proof.KRunA

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the output block and in each scratch buffer at a second half, with the body's triple
    on whole memrefs: the two input blocks at their contents, the output's buffer at anything, the scratch buffers at
    what the first half left (`xs·`). -/
noncomputable def kernelRun0_B (c : Dev nD) (i : grid0.Coords) (arg2 : Memref sig .tc .vmem S1x19x8192 .f32) (harg2 : arg2.IsWhole) (arg3 : Memref sig .tc .vmem S1x512x8192 .f32) (harg3 : arg3.IsWhole) (arg4 : Memref sig .tc .vmem S1x19x512 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : ¬cond0_0 i) (hc1 : cond0_1 i)
    (x0 : Vec F S1x19x8192 .f32) (x1 : Vec F S1x512x8192 .f32) (xs0 : Vec F S19x1 .f32) (xs1 : Vec F S19x1 .f32) (xs2 : Vec F S19x512 .f32) :
    Σ' (L2 : List (View.Piece (Elt F) S1x19x512 .f32)) (LS0 : List (View.Piece (Elt F) S19x1 .f32)) (LS1 : List (View.Piece (Elt F) S19x1 .f32)), { LS2 : List (View.Piece (Elt F) S19x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)
                ∗ (∃ f, arg7.view.loc (c : Thread nD τ) ↦[arg7.view.set]{fullShare} arg7.view.writes (Elt F) f LS2)) -∗ K ⟨⟩))
          ⊢ wp frame (wpE (defs₀ (F := F)) Variants.none c none) E (cc0__spatial_gather_kernel i arg2 harg2 arg3 harg3 arg4 harg4 arg5 harg5 arg6 harg6 arg7 harg7) K } := by
  refine ⟨?_, ?_, ?_, ?_, fun E K => ?run⟩
  case run =>
    simp only [cc0__spatial_gather_kernel_eq_skeleton]; unfold cc0__spatial_gather_kernel_skel
    simp only [k0_part1_eq_skeleton]; unfold k0_part1_skel
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
    obtain rfl := harg2.eq_unread hf0; obtain rfl := harg3.eq_unread hf1
    obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    isplitl [HS1]; · iexists _; iexact HS1
    iexists _; iexact HS2

end Cert.Kernel.Body

end
-- ==== Proof.KFrame.lean ====
/-
  The frame of the program from the two cases of its body.

  What the three scratch buffers (running maximum, denominator, numerator) and the output block hold after each grid
  point is stated by recursion on the point: at a first half (an even point) the scratch is reset and filled from that
  half alone; at a second half (an odd point) it is updated from what the point before left, and the output block
  receives the quotient. With these as the proof data the body obligation holds at every point, and the launch
  theorem gives the run: the program terminates, faults nowhere, and leaves its arguments as they were.
-/
import proofs.«106281_j5669356833568_2_alg».proof.Proof.KRunB

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

section CaseA
variable (c : Dev nD) (i : grid0.Coords) (arg2 : Memref sig .tc .vmem S1x19x8192 .f32) (harg2 : arg2.IsWhole) (arg3 : Memref sig .tc .vmem S1x512x8192 .f32) (harg3 : arg3.IsWhole) (arg4 : Memref sig .tc .vmem S1x19x512 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : cond0_0 i) (hc1 : ¬cond0_1 i)
  (x0 : Vec F S1x19x8192 .f32) (x1 : Vec F S1x512x8192 .f32)

theorem scover0_A_0 (y : S19x1.Idx) : ∃ pc ∈ (kernelRun0_A c i arg2 harg2 arg3 harg3 arg4 harg4 arg5 harg5 arg6 harg6 arg7 harg7 hc0 hc1 x0 x1).1, y ∈ pc.1.set :=
  View.cover_of_tiledL (kernelRun0_A c i arg2 harg2 arg3 harg3 arg4 harg4 arg5 harg5 arg6 harg6 arg7 harg7 hc0 hc1 x0 x1).1 S19x1.size (by sl_kernel_rfl) y
theorem scover0_A_1 (y : S19x1.Idx) : ∃ pc ∈ (kernelRun0_A c i arg2 harg2 arg3 harg3 arg4 harg4 arg5 harg5 arg6 harg6 arg7 harg7 hc0 hc1 x0 x1).2.1, y ∈ pc.1.set :=
  View.cover_of_tiledL (kernelRun0_A c i arg2 harg2 arg3 harg3 arg4 harg4 arg5 harg5 arg6 harg6 arg7 harg7 hc0 hc1 x0 x1).2.1 S19x1.size (by sl_kernel_rfl) y
theorem scover0_A_2 (y : S19x512.Idx) : ∃ pc ∈ (kernelRun0_A c i arg2 harg2 arg3 harg3 arg4 harg4 arg5 harg5 arg6 harg6 arg7 harg7 hc0 hc1 x0 x1).2.2.1, y ∈ pc.1.set :=
  View.cover_of_wholeMem (kernelRun0_A c i arg2 harg2 arg3 harg3 arg4 harg4 arg5 harg5 arg6 harg6 arg7 harg7 hc0 hc1 x0 x1).2.2.1 (by unfold kernelRun0_A; dsimp only; sl_whole_mem) y

/-- The running maximum after a first half. -/
def sout0_A_0 : Vec F S19x1 .f32 := VS0_0.read (Elt F) (VS0_0.writes (Elt F) VS0_0.junk (kernelRun0_A c i arg2 harg2 arg3 harg3 arg4 harg4 arg5 harg5 arg6 harg6 arg7 harg7 hc0 hc1 x0 x1).1)
/-- The running denominator after a first half. -/
def sout0_A_1 : Vec F S19x1 .f32 := VS0_1.read (Elt F) (VS0_1.writes (Elt F) VS0_1.junk (kernelRun0_A c i arg2 harg2 arg3 harg3 arg4 harg4 arg5 harg5 arg6 harg6 arg7 harg7 hc0 hc1 x0 x1).2.1)
/-- The running numerator after a first half. -/
def sout0_A_2 : Vec F S19x512 .f32 := VS0_2.read (Elt F) (VS0_2.writes (Elt F) VS0_2.junk (kernelRun0_A c i arg2 harg2 arg3 harg3 arg4 harg4 arg5 harg5 arg6 harg6 arg7 harg7 hc0 hc1 x0 x1).2.2.1)
end CaseA

/-- A first half stores nothing into the output block: a placeholder nothing consults. -/
def out0_A_2 : Vec F S1x19x512 .f32 := VO0_2.read (Elt F) VO0_2.junk

section CaseB
variable (c : Dev nD) (i : grid0.Coords) (arg2 : Memref sig .tc .vmem S1x19x8192 .f32) (harg2 : arg2.IsWhole) (arg3 : Memref sig .tc .vmem S1x512x8192 .f32) (harg3 : arg3.IsWhole) (arg4 : Memref sig .tc .vmem S1x19x512 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : ¬cond0_0 i) (hc1 : cond0_1 i)
  (x0 : Vec F S1x19x8192 .f32) (x1 : Vec F S1x512x8192 .f32) (xs0 : Vec F S19x1 .f32) (xs1 : Vec F S19x1 .f32) (xs2 : Vec F S19x512 .f32)

theorem cover0_B_2 (y : S1x19x512.Idx) : ∃ pc ∈ (kernelRun0_B c i arg2 harg2 arg3 harg3 arg4 harg4 arg5 harg5 arg6 harg6 arg7 harg7 hc0 hc1 x0 x1 xs0 xs1 xs2).1, y ∈ pc.1.set :=
  View.cover_of_tiledL (kernelRun0_B c i arg2 harg2 arg3 harg3 arg4 harg4 arg5 harg5 arg6 harg6 arg7 harg7 hc0 hc1 x0 x1 xs0 xs1 xs2).1 S1x19x512.size (by sl_kernel_rfl) y
theorem scover0_B_0 (y : S19x1.Idx) : ∃ pc ∈ (kernelRun0_B c i arg2 harg2 arg3 harg3 arg4 harg4 arg5 harg5 arg6 harg6 arg7 harg7 hc0 hc1 x0 x1 xs0 xs1 xs2).2.1, y ∈ pc.1.set :=
  View.cover_of_tiledL (kernelRun0_B c i arg2 harg2 arg3 harg3 arg4 harg4 arg5 harg5 arg6 harg6 arg7 harg7 hc0 hc1 x0 x1 xs0 xs1 xs2).2.1 S19x1.size (by sl_kernel_rfl) y
theorem scover0_B_1 (y : S19x1.Idx) : ∃ pc ∈ (kernelRun0_B c i arg2 harg2 arg3 harg3 arg4 harg4 arg5 harg5 arg6 harg6 arg7 harg7 hc0 hc1 x0 x1 xs0 xs1 xs2).2.2.1, y ∈ pc.1.set :=
  View.cover_of_tiledL (kernelRun0_B c i arg2 harg2 arg3 harg3 arg4 harg4 arg5 harg5 arg6 harg6 arg7 harg7 hc0 hc1 x0 x1 xs0 xs1 xs2).2.2.1 S19x1.size (by sl_kernel_rfl) y
theorem scover0_B_2 (y : S19x512.Idx) : ∃ pc ∈ (kernelRun0_B c i arg2 harg2 arg3 harg3 arg4 harg4 arg5 harg5 arg6 harg6 arg7 harg7 hc0 hc1 x0 x1 xs0 xs1 xs2).2.2.2.1, y ∈ pc.1.set :=
  View.cover_of_wholeMem (kernelRun0_B c i arg2 harg2 arg3 harg3 arg4 harg4 arg5 harg5 arg6 harg6 arg7 harg7 hc0 hc1 x0 x1 xs0 xs1 xs2).2.2.2.1 (by unfold kernelRun0_B; dsimp only; sl_whole_mem) y

/-- The output block after a second half. -/
def out0_B_2 : Vec F S1x19x512 .f32 := VO0_2.read (Elt F) (VO0_2.writes (Elt F) VO0_2.junk (kernelRun0_B c i arg2 harg2 arg3 harg3 arg4 harg4 arg5 harg5 arg6 harg6 arg7 harg7 hc0 hc1 x0 x1 xs0 xs1 xs2).1)
def sout0_B_0 : Vec F S19x1 .f32 := VS0_0.read (Elt F) (VS0_0.writes (Elt F) VS0_0.junk (kernelRun0_B c i arg2 harg2 arg3 harg3 arg4 harg4 arg5 harg5 arg6 harg6 arg7 harg7 hc0 hc1 x0 x1 xs0 xs1 xs2).2.1)
def sout0_B_1 : Vec F S19x1 .f32 := VS0_1.read (Elt F) (VS0_1.writes (Elt F) VS0_1.junk (kernelRun0_B c i arg2 harg2 arg3 harg3 arg4 harg4 arg5 harg5 arg6 harg6 arg7 harg7 hc0 hc1 x0 x1 xs0 xs1 xs2).2.2.1)
def sout0_B_2 : Vec F S19x512 .f32 := VS0_2.read (Elt F) (VS0_2.writes (Elt F) VS0_2.junk (kernelRun0_B c i arg2 harg2 arg3 harg3 arg4 harg4 arg5 harg5 arg6 harg6 arg7 harg7 hc0 hc1 x0 x1 xs0 xs1 xs2).2.2.2.1)
end CaseB

/-! ## Point by point -/

/-- The output block, the running maximum, the running denominator and the running numerator after the body at
    position `n`. -/
def outsAt0 (c : Dev nD) : (n : ℕ) → n < cfg0.N → Vec F S1x19x512 .f32 × Vec F S19x1 .f32 × Vec F S19x1 .f32 × Vec F S19x512 .f32
  | 0, hn =>
    have hA0 : cond0_0 (grid0.coords ⟨0, hn⟩) := (hcond0_0 ⟨0, hn⟩).mpr (Nat.zero_mod _)
    have hA1 : ¬cond0_1 (grid0.coords ⟨0, hn⟩) := fun h => by have := (hcond0_1 ⟨0, hn⟩).mp h; simp at this
    (out0_A_2, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) hA0 hA1 (iblk m c 0 ⟨0, hn⟩) (iblk m c 1 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) hA0 hA1 (iblk m c 0 ⟨0, hn⟩) (iblk m c 1 ⟨0, hn⟩),
      sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) hA0 hA1 (iblk m c 0 ⟨0, hn⟩) (iblk m c 1 ⟨0, hn⟩))
  | n + 1, hn =>
    if h0 : (n + 1) % 2 = 0 then
      have hA0 : cond0_0 (grid0.coords ⟨n + 1, hn⟩) := (hcond0_0 ⟨n + 1, hn⟩).mpr h0
      have hA1 : ¬cond0_1 (grid0.coords ⟨n + 1, hn⟩) := fun h => by have := (hcond0_1 ⟨n + 1, hn⟩).mp h; dsimp only at this; omega
      (out0_A_2, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) hA0 hA1 (iblk m c 0 ⟨n + 1, hn⟩) (iblk m c 1 ⟨n + 1, hn⟩),
        sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) hA0 hA1 (iblk m c 0 ⟨n + 1, hn⟩) (iblk m c 1 ⟨n + 1, hn⟩),
        sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) hA0 hA1 (iblk m c 0 ⟨n + 1, hn⟩) (iblk m c 1 ⟨n + 1, hn⟩))
    else
      have hB0 : ¬cond0_0 (grid0.coords ⟨n + 1, hn⟩) := fun h => h0 ((hcond0_0 ⟨n + 1, hn⟩).mp h)
      have hB1 : cond0_1 (grid0.coords ⟨n + 1, hn⟩) := (hcond0_1 ⟨n + 1, hn⟩).mpr (by dsimp only; omega)
      let prev := outsAt0 c n (Nat.lt_of_succ_lt hn)
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) hB0 hB1 (iblk m c 0 ⟨n + 1, hn⟩) (iblk m c 1 ⟨n + 1, hn⟩) prev.2.1 prev.2.2.1 prev.2.2.2,
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) hB0 hB1 (iblk m c 0 ⟨n + 1, hn⟩) (iblk m c 1 ⟨n + 1, hn⟩) prev.2.1 prev.2.2.1 prev.2.2.2,
        sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) hB0 hB1 (iblk m c 0 ⟨n + 1, hn⟩) (iblk m c 1 ⟨n + 1, hn⟩) prev.2.1 prev.2.2.1 prev.2.2.2,
        sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) hB0 hB1 (iblk m c 0 ⟨n + 1, hn⟩) (iblk m c 1 ⟨n + 1, hn⟩) prev.2.1 prev.2.2.1 prev.2.2.2)

/-- At a first half: that case's contents. -/
theorem outsAt0_A (c : Dev nD) (t : Fin cfg0.N) (hA0 : cond0_0 (grid0.coords t)) (hA1 : ¬cond0_1 (grid0.coords t)) :
    outsAt0 m c t.val t.isLt = (out0_A_2, sout0_A_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hA0 hA1 (iblk m c 0 t) (iblk m c 1 t),
      sout0_A_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hA0 hA1 (iblk m c 0 t) (iblk m c 1 t),
      sout0_A_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hA0 hA1 (iblk m c 0 t) (iblk m c 1 t)) := by
  have h0 : t.val % 2 = 0 := (hcond0_0 t).mp hA0
  obtain ⟨n, hn⟩ := t
  cases n with
  | zero => rfl
  | succ n => exact (dif_pos h0).trans rfl

/-- At a second half: that case's contents over what the point before left. -/
theorem outsAt0_B (c : Dev nD) (t : Fin cfg0.N) (hB0 : ¬cond0_0 (grid0.coords t)) (hB1 : cond0_1 (grid0.coords t)) :
    outsAt0 m c t.val t.isLt =
      (out0_B_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hB0 hB1 (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
       sout0_B_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hB0 hB1 (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
       sout0_B_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hB0 hB1 (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
       sout0_B_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hB0 hB1 (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  have h0 : ¬t.val % 2 = 0 := fun h => hB0 ((hcond0_0 t).mpr h)
  obtain ⟨n, hn⟩ := t
  cases n with
  | zero => exact absurd (Nat.zero_mod _) h0
  | succ n => exact (dif_neg h0).trans rfl

/-- The region invariant before position `n`: before the first point every scratch buffer at anything; afterwards
    the three scratch buffers at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The proof data -/

/-- The arrays as the region finds them; after the body at point `t` each input's buffer at its block and the
    output's at `outsAt0`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' buffers hold their blocks; an even point is a first half and an odd one a
    second half; the invariant hands the body the scratch buffers (at anything before the first point, otherwise at what
    the point before left) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 2 = 0
  · have hA0 : cond0_0 (grid0.coords t) := (hcond0_0 t).mpr h0
    have hA1 : ¬cond0_1 (grid0.coords t) := fun h => by have := (hcond0_1 t).mp h; omega
    rw [Dat.leavesExact_idle (dats m 0 c) 2 t (idleAt0_2_A t hA0 hA1) (noFlush0_2_A t hA0 hA1)]
    rw [outsAt0_A m c t hA0 hA1]
    unfold sout0_A_0 sout0_A_1 sout0_A_2; (try dsimp only)
    by_cases hz : t.val = 0
    · rw [PhiS_castSucc m c t, PhiS_zero m c _ _ hz, PhiA0_eq]
      iintro ⟨⟨⟨HS0, HS1, HS2⟩, Hg⟩, Ho, ⟨%d0, H0⟩, ⟨%d1, H1⟩, ⟨%d2, H2⟩⟩
      iapply ((kernelRun0_A c (grid0.coords t) _ _ _ _ _ _ _ _ _ _ _ _ hA0 hA1 (iblk m c 0 t) (iblk m c 1 t)).2.2.2 _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, ⟨%es0, HS0⟩, ⟨%es1, HS1⟩, ⟨%es2, HS2⟩⟩
      isplitl [HS0 HS1 HS2 Hg]
      · isplitr [Hg]
        · isplitl [HS0]
          · unfold owns; iexists _; isplitr
            swap; · iexact HS0
            ipureintro; exact View.read_writes_of_cover _ _ _ _ _ (scover0_A_0 c _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _)
          unfold owns; iexists _; isplitr
          swap; · iexact HS2
          ipureintro; exact View.read_writes_of_cover _ _ _ _ _ (scover0_A_2 c _ _ _ _ _ _ _ _ _ _ _ _ _ _ _ _ _)
        iexact Hg
      isplitl [Ho]; · iexact Ho
      isplitl [H0]; · iexact H0
      isplitl [H1]; · iexact H1
      iexists _; iexact H2
    · rw [PhiS_castSucc m c t, PhiS_pos m c _ _ hz]
      iintro ⟨⟨⟨HS0, HS1, HS2⟩, Hg⟩, Ho, ⟨%d0, H0⟩, ⟨%d1, H1⟩, ⟨%d2, H2⟩⟩
      iapply ((kernelRun0_A c (grid0.coords t) _ _ _ _ _ _ _ _ _ _ _ _ hA0 hA1 (iblk m c 0 t) (iblk m c 1 t)).2.2.2 _ Set.univ _)
      isplitl [H0]; · iexact H0
      isplitl [H1]; · iexact H1
      isplitl [H2]; · iexact H2
      isplitl [HS0]; · iexists _; iexact HS0
      isplitl [HS1]; · iexists _; iexact HS1
      isplitl [HS2]; · iexists _; iexact HS2
      iintro ⟨H0, H1, H2, ⟨%es0, HS0⟩, ⟨%es1, HS1⟩, ⟨%es2, HS2⟩⟩
      isplitl [HS0 HS1 HS2 Hg]
      · isplitr [Hg]
        · isplitl [HS0]
          · unfold owns; iexists _; isplitr
            swap; · iexact HS0
            ipureintro; exact View.read_writes_of_cover _ _ _ _ _ (scover0_A_0 c _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _)
          unfold owns; iexists _; isplitr
          swap; · iexact HS2
          ipureintro; exact View.read_writes_of_cover _ _ _ _ _ (scover0_A_2 c _ _ _ _ _ _ _ _ _ _ _ _ _ _ _ _ _)
        iexact Hg
      isplitl [Ho]; · iexact Ho
      isplitl [H0]; · iexact H0
      isplitl [H1]; · iexact H1
      iexists _; iexact H2
  · have hB0 : ¬cond0_0 (grid0.coords t) := fun h => h0 ((hcond0_0 t).mp h)
    have hB1 : cond0_1 (grid0.coords t) := (hcond0_1 t).mpr (by omega)
    have hz : t.val ≠ 0 := fun h => h0 (by rw [h])
    rw [show (dats m 0 c).leavesExact 2 t = owns (c : Thread nD τ) (ms0_2 t) fullShare ((dats m 0 c).after 2 t) from by
      unfold Dat.leavesExact; rw [liveAt0_2_B t hB0 hB1], after0_2]
    rw [outsAt0_B m c t hB0 hB1]
    unfold out0_B_2 sout0_B_0 sout0_B_1 sout0_B_2; (try dsimp only)
    rw [PhiS_castSucc m c t, PhiS_pos m c _ _ hz]
    iintro ⟨⟨⟨HS0, HS1, HS2⟩, Hg⟩, Ho, ⟨%d0, H0⟩, ⟨%d1, H1⟩, ⟨%d2, H2⟩⟩
    iapply ((kernelRun0_B c (grid0.coords t) _ _ _ _ _ _ _ _ _ _ _ _ hB0 hB1 (iblk m c 0 t) (iblk m c 1 t) _ _ _).2.2.2.2 Set.univ _)
    isplitl [H0]; · iexact H0
    isplitl [H1]; · iexact H1
    isplitl [H2]; · iexists _; iexact H2
    isplitl [HS0]; · iexact HS0
    isplitl [HS1]; · iexact HS1
    isplitl [HS2]; · iexact HS2
    iintro ⟨H0, H1, ⟨%e2, H2⟩, ⟨%es0, HS0⟩, ⟨%es1, HS1⟩, ⟨%es2, HS2⟩⟩
    isplitl [HS0 HS1 HS2 Hg]
    · isplitr [Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _)
        isplitl [HS1]
        · unfold owns; iexists _; isplitr
          swap; · iexact HS1
          ipureintro; exact View.read_writes_of_cover _ _ _ _ _ (scover0_B_1 c _ _ _ _ _ _ _ _ _ _ _ _ _ _ _ _ _ _ _ _)
        unfold owns; iexists _; isplitr
        swap; · iexact HS2
        ipureintro; exact View.read_writes_of_cover _ _ _ _ _ (scover0_B_2 c _ _ _ _ _ _ _ _ _ _ _ _ _ _ _ _ _ _ _ _)
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
/-- Every weakly fair execution of the program terminates, and every final state has every array of the pipeline at
    what the proof data says and every other buffer as the host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end and its two argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.KIShared.lean ====
/-
  What the two cases of the kernel body share: the body's two branch conditions in closed form over the grid
  (the first half of a batch entry is the even points, the second half the odd ones), where the output window is
  idle, the staging and scratch memrefs by name, and the region invariant spelt over the three scratch buffers
  (running maximum, running denominator, running numerator).
-/
import proofs.«106281_j5669356833568_2_alg».proof.Proof.Gen.KernelIdeal.Frame
import proofs.«106281_j5669356833568_2_alg».proof.Proof.Gen.KernelIdeal.Loops
import proofs.«106281_j5669356833568_2_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first branch is taken at the first half of a batch entry: there the three scratch buffers are reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 2 = 0 :=
  (by decide +kernel : ∀ t : Fin grid0.N, cond0_0 (grid0.coords t) ↔ t.val % 2 = 0)

/-- The second branch is taken at the second half: there the quotient is stored into the output block. -/
abbrev cond0_1 (i : grid0.Coords) : Prop := k0_cond2 i = 1#1
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- At a first half the output block is not stored into, -/
theorem idleAt0_2_A : ∀ t : Fin cfg0.N, cond0_0 (grid0.coords t) → ¬cond0_1 (grid0.coords t) → cfg0.idle 2 (grid0.coords t) = true := by decide +kernel
/-- and not written back. -/
theorem noFlush0_2_A : ∀ t : Fin cfg0.N, cond0_0 (grid0.coords t) → ¬cond0_1 (grid0.coords t) → (cfg0.win 2).flush t = false := by decide +kernel
/-- At a second half it is stored into. -/
theorem liveAt0_2_B : ∀ t : Fin cfg0.N, ¬cond0_0 (grid0.coords t) → cond0_1 (grid0.coords t) → cfg0.idle 2 (grid0.coords t) = false := by decide +kernel

/-! ## The memrefs -/

abbrev VO0_2 : View sig .tc .vmem S1x19x512 .f32 := (Memref.whole cc0_stg2_0 : Memref sig .tc .vmem S1x19x512 .f32).view
abbrev ms0_0 (t : Fin cfg0.N) : Memref sig .tc .vmem S1x19x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x19x512 .f32 := win0_2.stage (cfg0.slots t 2)
abbrev hs0_2 (t : Fin cfg0.N) : (ms0_2 t).IsWhole := hstage0_2 ((cfg0.slots t 2).cast nbuf0_2)
/-- The running maximum, the running denominator, the running numerator. -/
abbrev scM0_0 : Memref sig .tc .vmem S19x1 .f32 := Memref.whole cc0_scratch0
abbrev scM0_1 : Memref sig .tc .vmem S19x1 .f32 := Memref.whole cc0_scratch1
abbrev scM0_2 : Memref sig .tc .vmem S19x512 .f32 := Memref.whole cc0_scratch2
abbrev VS0_0 : View sig .tc .vmem S19x1 .f32 := scM0_0.view
abbrev VS0_1 : View sig .tc .vmem S19x1 .f32 := scM0_1.view
abbrev VS0_2 : View sig .tc .vmem S19x512 .f32 := scM0_2.view

/-- The region invariant with the three scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Body

end
-- ==== Proof.KIRunA.lean ====
/-
  The kernel body at the first half of a batch entry: the three scratch buffers are reset (−∞, 0, 0), the half's
  maximum, rescaling factor and weights are computed, the denominator and the numerator are updated — the numerator
  in four column chunks by a counted loop —, and the output block is left untouched.
-/
import proofs.«106281_j5669356833568_2_alg».proof.Proof.KIShared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in each scratch buffer at a first half, with the body's triple on whole memrefs: the two
    input blocks at their contents, the output's buffer handed back untouched, every scratch buffer at anything. -/
noncomputable def kernelRun0_A (c : Dev nD) (i : grid0.Coords) (arg2 : Memref sig .tc .vmem S1x19x8192 .f32) (harg2 : arg2.IsWhole) (arg3 : Memref sig .tc .vmem S1x512x8192 .f32) (harg3 : arg3.IsWhole) (arg4 : Memref sig .tc .vmem S1x19x512 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : cond0_0 i) (hc1 : ¬cond0_1 i)
    (x0 : Vec F S1x19x8192 .f32) (x1 : Vec F S1x512x8192 .f32) :
    Σ' (LS0 : List (View.Piece (Elt F) S19x1 .f32)) (LS1 : List (View.Piece (Elt F) S19x1 .f32)), { LS2 : List (View.Piece (Elt F) S19x512 .f32) //
      ∀ (xi2 : Vec F S1x19x512 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)
                ∗ (∃ f, arg7.view.loc (c : Thread nD τ) ↦[arg7.view.set]{fullShare} arg7.view.writes (Elt F) f LS2)) -∗ K ⟨⟩))
          ⊢ wp frame (wpE (defs₀ (F := F)) Variants.none c none) E (cc0__spatial_gather_kernel i arg2 harg2 arg3 harg3 arg4 harg4 arg5 harg5 arg6 harg6 arg7 harg7) K } := by
  refine ⟨?_, ?_, ?_, fun xi2 E K => ?run⟩
  case run =>
    simp only [cc0__spatial_gather_kernel_eq_skeleton]; unfold cc0__spatial_gather_kernel_skel
    simp only [k0_part1_eq_skeleton]; unfold k0_part1_skel
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    iexists _; iexact HS2

end Cert.KernelIdeal.Body

end
-- ==== Proof.KIRunB.lean ====
/-
  The kernel body at the second half of a batch entry: the scratch buffers hold what the first half left (running
  maximum, denominator, numerator); they are updated with this half's scores, and the quotient numerator / denominator
  is stored into the output block.
-/
import proofs.«106281_j5669356833568_2_alg».proof.Proof.KIRunA

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the output block and in each scratch buffer at a second half, with the body's triple
    on whole memrefs: the two input blocks at their contents, the output's buffer at anything, the scratch buffers at
    what the first half left (`xs·`). -/
noncomputable def kernelRun0_B (c : Dev nD) (i : grid0.Coords) (arg2 : Memref sig .tc .vmem S1x19x8192 .f32) (harg2 : arg2.IsWhole) (arg3 : Memref sig .tc .vmem S1x512x8192 .f32) (harg3 : arg3.IsWhole) (arg4 : Memref sig .tc .vmem S1x19x512 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : ¬cond0_0 i) (hc1 : cond0_1 i)
    (x0 : Vec F S1x19x8192 .f32) (x1 : Vec F S1x512x8192 .f32) (xs0 : Vec F S19x1 .f32) (xs1 : Vec F S19x1 .f32) (xs2 : Vec F S19x512 .f32) :
    Σ' (L2 : List (View.Piece (Elt F) S1x19x512 .f32)) (LS0 : List (View.Piece (Elt F) S19x1 .f32)) (LS1 : List (View.Piece (Elt F) S19x1 .f32)), { LS2 : List (View.Piece (Elt F) S19x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)
                ∗ (∃ f, arg7.view.loc (c : Thread nD τ) ↦[arg7.view.set]{fullShare} arg7.view.writes (Elt F) f LS2)) -∗ K ⟨⟩))
          ⊢ wp frame (wpE (defs₀ (F := F)) Variants.none c none) E (cc0__spatial_gather_kernel i arg2 harg2 arg3 harg3 arg4 harg4 arg5 harg5 arg6 harg6 arg7 harg7) K } := by
  refine ⟨?_, ?_, ?_, ?_, fun E K => ?run⟩
  case run =>
    simp only [cc0__spatial_gather_kernel_eq_skeleton]; unfold cc0__spatial_gather_kernel_skel
    simp only [k0_part1_eq_skeleton]; unfold k0_part1_skel
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
    obtain rfl := harg2.eq_unread hf0; obtain rfl := harg3.eq_unread hf1
    obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    isplitl [HS1]; · iexists _; iexact HS1
    iexists _; iexact HS2

end Cert.KernelIdeal.Body

end
-- ==== Proof.KIFrame.lean ====
/-
  The frame of the program from the two cases of its body.

  What the three scratch buffers (running maximum, denominator, numerator) and the output block hold after each grid
  point is stated by recursion on the point: at a first half (an even point) the scratch is reset and filled from that
  half alone; at a second half (an odd point) it is updated from what the point before left, and the output block
  receives the quotient. With these as the proof data the body obligation holds at every point, and the launch
  theorem gives the run: the program terminates, faults nowhere, and leaves its arguments as they were.
-/
import proofs.«106281_j5669356833568_2_alg».proof.Proof.KIRunB

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

section CaseA
variable (c : Dev nD) (i : grid0.Coords) (arg2 : Memref sig .tc .vmem S1x19x8192 .f32) (harg2 : arg2.IsWhole) (arg3 : Memref sig .tc .vmem S1x512x8192 .f32) (harg3 : arg3.IsWhole) (arg4 : Memref sig .tc .vmem S1x19x512 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : cond0_0 i) (hc1 : ¬cond0_1 i)
  (x0 : Vec F S1x19x8192 .f32) (x1 : Vec F S1x512x8192 .f32)

theorem scover0_A_0 (y : S19x1.Idx) : ∃ pc ∈ (kernelRun0_A c i arg2 harg2 arg3 harg3 arg4 harg4 arg5 harg5 arg6 harg6 arg7 harg7 hc0 hc1 x0 x1).1, y ∈ pc.1.set :=
  View.cover_of_tiledL (kernelRun0_A c i arg2 harg2 arg3 harg3 arg4 harg4 arg5 harg5 arg6 harg6 arg7 harg7 hc0 hc1 x0 x1).1 S19x1.size (by sl_kernel_rfl) y
theorem scover0_A_1 (y : S19x1.Idx) : ∃ pc ∈ (kernelRun0_A c i arg2 harg2 arg3 harg3 arg4 harg4 arg5 harg5 arg6 harg6 arg7 harg7 hc0 hc1 x0 x1).2.1, y ∈ pc.1.set :=
  View.cover_of_tiledL (kernelRun0_A c i arg2 harg2 arg3 harg3 arg4 harg4 arg5 harg5 arg6 harg6 arg7 harg7 hc0 hc1 x0 x1).2.1 S19x1.size (by sl_kernel_rfl) y
theorem scover0_A_2 (y : S19x512.Idx) : ∃ pc ∈ (kernelRun0_A c i arg2 harg2 arg3 harg3 arg4 harg4 arg5 harg5 arg6 harg6 arg7 harg7 hc0 hc1 x0 x1).2.2.1, y ∈ pc.1.set :=
  View.cover_of_wholeMem (kernelRun0_A c i arg2 harg2 arg3 harg3 arg4 harg4 arg5 harg5 arg6 harg6 arg7 harg7 hc0 hc1 x0 x1).2.2.1 (by unfold kernelRun0_A; dsimp only; sl_whole_mem) y

/-- The running maximum after a first half. -/
def sout0_A_0 : Vec F S19x1 .f32 := VS0_0.read (Elt F) (VS0_0.writes (Elt F) VS0_0.junk (kernelRun0_A c i arg2 harg2 arg3 harg3 arg4 harg4 arg5 harg5 arg6 harg6 arg7 harg7 hc0 hc1 x0 x1).1)
/-- The running denominator after a first half. -/
def sout0_A_1 : Vec F S19x1 .f32 := VS0_1.read (Elt F) (VS0_1.writes (Elt F) VS0_1.junk (kernelRun0_A c i arg2 harg2 arg3 harg3 arg4 harg4 arg5 harg5 arg6 harg6 arg7 harg7 hc0 hc1 x0 x1).2.1)
/-- The running numerator after a first half. -/
def sout0_A_2 : Vec F S19x512 .f32 := VS0_2.read (Elt F) (VS0_2.writes (Elt F) VS0_2.junk (kernelRun0_A c i arg2 harg2 arg3 harg3 arg4 harg4 arg5 harg5 arg6 harg6 arg7 harg7 hc0 hc1 x0 x1).2.2.1)
end CaseA

/-- A first half stores nothing into the output block: a placeholder nothing consults. -/
def out0_A_2 : Vec F S1x19x512 .f32 := VO0_2.read (Elt F) VO0_2.junk

section CaseB
variable (c : Dev nD) (i : grid0.Coords) (arg2 : Memref sig .tc .vmem S1x19x8192 .f32) (harg2 : arg2.IsWhole) (arg3 : Memref sig .tc .vmem S1x512x8192 .f32) (harg3 : arg3.IsWhole) (arg4 : Memref sig .tc .vmem S1x19x512 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : ¬cond0_0 i) (hc1 : cond0_1 i)
  (x0 : Vec F S1x19x8192 .f32) (x1 : Vec F S1x512x8192 .f32) (xs0 : Vec F S19x1 .f32) (xs1 : Vec F S19x1 .f32) (xs2 : Vec F S19x512 .f32)

theorem cover0_B_2 (y : S1x19x512.Idx) : ∃ pc ∈ (kernelRun0_B c i arg2 harg2 arg3 harg3 arg4 harg4 arg5 harg5 arg6 harg6 arg7 harg7 hc0 hc1 x0 x1 xs0 xs1 xs2).1, y ∈ pc.1.set :=
  View.cover_of_tiledL (kernelRun0_B c i arg2 harg2 arg3 harg3 arg4 harg4 arg5 harg5 arg6 harg6 arg7 harg7 hc0 hc1 x0 x1 xs0 xs1 xs2).1 S1x19x512.size (by sl_kernel_rfl) y
theorem scover0_B_0 (y : S19x1.Idx) : ∃ pc ∈ (kernelRun0_B c i arg2 harg2 arg3 harg3 arg4 harg4 arg5 harg5 arg6 harg6 arg7 harg7 hc0 hc1 x0 x1 xs0 xs1 xs2).2.1, y ∈ pc.1.set :=
  View.cover_of_tiledL (kernelRun0_B c i arg2 harg2 arg3 harg3 arg4 harg4 arg5 harg5 arg6 harg6 arg7 harg7 hc0 hc1 x0 x1 xs0 xs1 xs2).2.1 S19x1.size (by sl_kernel_rfl) y
theorem scover0_B_1 (y : S19x1.Idx) : ∃ pc ∈ (kernelRun0_B c i arg2 harg2 arg3 harg3 arg4 harg4 arg5 harg5 arg6 harg6 arg7 harg7 hc0 hc1 x0 x1 xs0 xs1 xs2).2.2.1, y ∈ pc.1.set :=
  View.cover_of_tiledL (kernelRun0_B c i arg2 harg2 arg3 harg3 arg4 harg4 arg5 harg5 arg6 harg6 arg7 harg7 hc0 hc1 x0 x1 xs0 xs1 xs2).2.2.1 S19x1.size (by sl_kernel_rfl) y
theorem scover0_B_2 (y : S19x512.Idx) : ∃ pc ∈ (kernelRun0_B c i arg2 harg2 arg3 harg3 arg4 harg4 arg5 harg5 arg6 harg6 arg7 harg7 hc0 hc1 x0 x1 xs0 xs1 xs2).2.2.2.1, y ∈ pc.1.set :=
  View.cover_of_wholeMem (kernelRun0_B c i arg2 harg2 arg3 harg3 arg4 harg4 arg5 harg5 arg6 harg6 arg7 harg7 hc0 hc1 x0 x1 xs0 xs1 xs2).2.2.2.1 (by unfold kernelRun0_B; dsimp only; sl_whole_mem) y

/-- The output block after a second half. -/
def out0_B_2 : Vec F S1x19x512 .f32 := VO0_2.read (Elt F) (VO0_2.writes (Elt F) VO0_2.junk (kernelRun0_B c i arg2 harg2 arg3 harg3 arg4 harg4 arg5 harg5 arg6 harg6 arg7 harg7 hc0 hc1 x0 x1 xs0 xs1 xs2).1)
def sout0_B_0 : Vec F S19x1 .f32 := VS0_0.read (Elt F) (VS0_0.writes (Elt F) VS0_0.junk (kernelRun0_B c i arg2 harg2 arg3 harg3 arg4 harg4 arg5 harg5 arg6 harg6 arg7 harg7 hc0 hc1 x0 x1 xs0 xs1 xs2).2.1)
def sout0_B_1 : Vec F S19x1 .f32 := VS0_1.read (Elt F) (VS0_1.writes (Elt F) VS0_1.junk (kernelRun0_B c i arg2 harg2 arg3 harg3 arg4 harg4 arg5 harg5 arg6 harg6 arg7 harg7 hc0 hc1 x0 x1 xs0 xs1 xs2).2.2.1)
def sout0_B_2 : Vec F S19x512 .f32 := VS0_2.read (Elt F) (VS0_2.writes (Elt F) VS0_2.junk (kernelRun0_B c i arg2 harg2 arg3 harg3 arg4 harg4 arg5 harg5 arg6 harg6 arg7 harg7 hc0 hc1 x0 x1 xs0 xs1 xs2).2.2.2.1)
end CaseB

/-! ## Point by point -/

/-- The output block, the running maximum, the running denominator and the running numerator after the body at
    position `n`. -/
def outsAt0 (c : Dev nD) : (n : ℕ) → n < cfg0.N → Vec F S1x19x512 .f32 × Vec F S19x1 .f32 × Vec F S19x1 .f32 × Vec F S19x512 .f32
  | 0, hn =>
    have hA0 : cond0_0 (grid0.coords ⟨0, hn⟩) := (hcond0_0 ⟨0, hn⟩).mpr (Nat.zero_mod _)
    have hA1 : ¬cond0_1 (grid0.coords ⟨0, hn⟩) := fun h => by have := (hcond0_1 ⟨0, hn⟩).mp h; simp at this
    (out0_A_2, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) hA0 hA1 (iblk m c 0 ⟨0, hn⟩) (iblk m c 1 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) hA0 hA1 (iblk m c 0 ⟨0, hn⟩) (iblk m c 1 ⟨0, hn⟩),
      sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) hA0 hA1 (iblk m c 0 ⟨0, hn⟩) (iblk m c 1 ⟨0, hn⟩))
  | n + 1, hn =>
    if h0 : (n + 1) % 2 = 0 then
      have hA0 : cond0_0 (grid0.coords ⟨n + 1, hn⟩) := (hcond0_0 ⟨n + 1, hn⟩).mpr h0
      have hA1 : ¬cond0_1 (grid0.coords ⟨n + 1, hn⟩) := fun h => by have := (hcond0_1 ⟨n + 1, hn⟩).mp h; dsimp only at this; omega
      (out0_A_2, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) hA0 hA1 (iblk m c 0 ⟨n + 1, hn⟩) (iblk m c 1 ⟨n + 1, hn⟩),
        sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) hA0 hA1 (iblk m c 0 ⟨n + 1, hn⟩) (iblk m c 1 ⟨n + 1, hn⟩),
        sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) hA0 hA1 (iblk m c 0 ⟨n + 1, hn⟩) (iblk m c 1 ⟨n + 1, hn⟩))
    else
      have hB0 : ¬cond0_0 (grid0.coords ⟨n + 1, hn⟩) := fun h => h0 ((hcond0_0 ⟨n + 1, hn⟩).mp h)
      have hB1 : cond0_1 (grid0.coords ⟨n + 1, hn⟩) := (hcond0_1 ⟨n + 1, hn⟩).mpr (by dsimp only; omega)
      let prev := outsAt0 c n (Nat.lt_of_succ_lt hn)
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) hB0 hB1 (iblk m c 0 ⟨n + 1, hn⟩) (iblk m c 1 ⟨n + 1, hn⟩) prev.2.1 prev.2.2.1 prev.2.2.2,
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) hB0 hB1 (iblk m c 0 ⟨n + 1, hn⟩) (iblk m c 1 ⟨n + 1, hn⟩) prev.2.1 prev.2.2.1 prev.2.2.2,
        sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) hB0 hB1 (iblk m c 0 ⟨n + 1, hn⟩) (iblk m c 1 ⟨n + 1, hn⟩) prev.2.1 prev.2.2.1 prev.2.2.2,
        sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) hB0 hB1 (iblk m c 0 ⟨n + 1, hn⟩) (iblk m c 1 ⟨n + 1, hn⟩) prev.2.1 prev.2.2.1 prev.2.2.2)

/-- At a first half: that case's contents. -/
theorem outsAt0_A (c : Dev nD) (t : Fin cfg0.N) (hA0 : cond0_0 (grid0.coords t)) (hA1 : ¬cond0_1 (grid0.coords t)) :
    outsAt0 m c t.val t.isLt = (out0_A_2, sout0_A_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hA0 hA1 (iblk m c 0 t) (iblk m c 1 t),
      sout0_A_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hA0 hA1 (iblk m c 0 t) (iblk m c 1 t),
      sout0_A_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hA0 hA1 (iblk m c 0 t) (iblk m c 1 t)) := by
  have h0 : t.val % 2 = 0 := (hcond0_0 t).mp hA0
  obtain ⟨n, hn⟩ := t
  cases n with
  | zero => rfl
  | succ n => exact (dif_pos h0).trans rfl

/-- At a second half: that case's contents over what the point before left. -/
theorem outsAt0_B (c : Dev nD) (t : Fin cfg0.N) (hB0 : ¬cond0_0 (grid0.coords t)) (hB1 : cond0_1 (grid0.coords t)) :
    outsAt0 m c t.val t.isLt =
      (out0_B_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hB0 hB1 (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
       sout0_B_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hB0 hB1 (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
       sout0_B_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hB0 hB1 (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
       sout0_B_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hB0 hB1 (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  have h0 : ¬t.val % 2 = 0 := fun h => hB0 ((hcond0_0 t).mpr h)
  obtain ⟨n, hn⟩ := t
  cases n with
  | zero => exact absurd (Nat.zero_mod _) h0
  | succ n => exact (dif_neg h0).trans rfl

/-- The region invariant before position `n`: before the first point every scratch buffer at anything; afterwards
    the three scratch buffers at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The proof data -/

/-- The arrays as the region finds them; after the body at point `t` each input's buffer at its block and the
    output's at `outsAt0`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' buffers hold their blocks; an even point is a first half and an odd one a
    second half; the invariant hands the body the scratch buffers (at anything before the first point, otherwise at what
    the point before left) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 2 = 0
  · have hA0 : cond0_0 (grid0.coords t) := (hcond0_0 t).mpr h0
    have hA1 : ¬cond0_1 (grid0.coords t) := fun h => by have := (hcond0_1 t).mp h; omega
    rw [Dat.leavesExact_idle (dats m 0 c) 2 t (idleAt0_2_A t hA0 hA1) (noFlush0_2_A t hA0 hA1)]
    rw [outsAt0_A m c t hA0 hA1]
    unfold sout0_A_0 sout0_A_1 sout0_A_2; (try dsimp only)
    by_cases hz : t.val = 0
    · rw [PhiS_castSucc m c t, PhiS_zero m c _ _ hz, PhiA0_eq]
      iintro ⟨⟨⟨HS0, HS1, HS2⟩, Hg⟩, Ho, ⟨%d0, H0⟩, ⟨%d1, H1⟩, ⟨%d2, H2⟩⟩
      iapply ((kernelRun0_A c (grid0.coords t) _ _ _ _ _ _ _ _ _ _ _ _ hA0 hA1 (iblk m c 0 t) (iblk m c 1 t)).2.2.2 _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, ⟨%es0, HS0⟩, ⟨%es1, HS1⟩, ⟨%es2, HS2⟩⟩
      isplitl [HS0 HS1 HS2 Hg]
      · isplitr [Hg]
        · isplitl [HS0]
          · unfold owns; iexists _; isplitr
            swap; · iexact HS0
            ipureintro; exact View.read_writes_of_cover _ _ _ _ _ (scover0_A_0 c _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _)
          unfold owns; iexists _; isplitr
          swap; · iexact HS2
          ipureintro; exact View.read_writes_of_cover _ _ _ _ _ (scover0_A_2 c _ _ _ _ _ _ _ _ _ _ _ _ _ _ _ _ _)
        iexact Hg
      isplitl [Ho]; · iexact Ho
      isplitl [H0]; · iexact H0
      isplitl [H1]; · iexact H1
      iexists _; iexact H2
    · rw [PhiS_castSucc m c t, PhiS_pos m c _ _ hz]
      iintro ⟨⟨⟨HS0, HS1, HS2⟩, Hg⟩, Ho, ⟨%d0, H0⟩, ⟨%d1, H1⟩, ⟨%d2, H2⟩⟩
      iapply ((kernelRun0_A c (grid0.coords t) _ _ _ _ _ _ _ _ _ _ _ _ hA0 hA1 (iblk m c 0 t) (iblk m c 1 t)).2.2.2 _ Set.univ _)
      isplitl [H0]; · iexact H0
      isplitl [H1]; · iexact H1
      isplitl [H2]; · iexact H2
      isplitl [HS0]; · iexists _; iexact HS0
      isplitl [HS1]; · iexists _; iexact HS1
      isplitl [HS2]; · iexists _; iexact HS2
      iintro ⟨H0, H1, H2, ⟨%es0, HS0⟩, ⟨%es1, HS1⟩, ⟨%es2, HS2⟩⟩
      isplitl [HS0 HS1 HS2 Hg]
      · isplitr [Hg]
        · isplitl [HS0]
          · unfold owns; iexists _; isplitr
            swap; · iexact HS0
            ipureintro; exact View.read_writes_of_cover _ _ _ _ _ (scover0_A_0 c _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _)
          unfold owns; iexists _; isplitr
          swap; · iexact HS2
          ipureintro; exact View.read_writes_of_cover _ _ _ _ _ (scover0_A_2 c _ _ _ _ _ _ _ _ _ _ _ _ _ _ _ _ _)
        iexact Hg
      isplitl [Ho]; · iexact Ho
      isplitl [H0]; · iexact H0
      isplitl [H1]; · iexact H1
      iexists _; iexact H2
  · have hB0 : ¬cond0_0 (grid0.coords t) := fun h => h0 ((hcond0_0 t).mp h)
    have hB1 : cond0_1 (grid0.coords t) := (hcond0_1 t).mpr (by omega)
    have hz : t.val ≠ 0 := fun h => h0 (by rw [h])
    rw [show (dats m 0 c).leavesExact 2 t = owns (c : Thread nD τ) (ms0_2 t) fullShare ((dats m 0 c).after 2 t) from by
      unfold Dat.leavesExact; rw [liveAt0_2_B t hB0 hB1], after0_2]
    rw [outsAt0_B m c t hB0 hB1]
    unfold out0_B_2 sout0_B_0 sout0_B_1 sout0_B_2; (try dsimp only)
    rw [PhiS_castSucc m c t, PhiS_pos m c _ _ hz]
    iintro ⟨⟨⟨HS0, HS1, HS2⟩, Hg⟩, Ho, ⟨%d0, H0⟩, ⟨%d1, H1⟩, ⟨%d2, H2⟩⟩
    iapply ((kernelRun0_B c (grid0.coords t) _ _ _ _ _ _ _ _ _ _ _ _ hB0 hB1 (iblk m c 0 t) (iblk m c 1 t) _ _ _).2.2.2.2 Set.univ _)
    isplitl [H0]; · iexact H0
    isplitl [H1]; · iexact H1
    isplitl [H2]; · iexists _; iexact H2
    isplitl [HS0]; · iexact HS0
    isplitl [HS1]; · iexact HS1
    isplitl [HS2]; · iexact HS2
    iintro ⟨H0, H1, ⟨%e2, H2⟩, ⟨%es0, HS0⟩, ⟨%es1, HS1⟩, ⟨%es2, HS2⟩⟩
    isplitl [HS0 HS1 HS2 Hg]
    · isplitr [Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _)
        isplitl [HS1]
        · unfold owns; iexists _; isplitr
          swap; · iexact HS1
          ipureintro; exact View.read_writes_of_cover _ _ _ _ _ (scover0_B_1 c _ _ _ _ _ _ _ _ _ _ _ _ _ _ _ _ _ _ _ _)
        unfold owns; iexists _; isplitr
        swap; · iexact HS2
        ipureintro; exact View.read_writes_of_cover _ _ _ _ _ (scover0_B_2 c _ _ _ _ _ _ _ _ _ _ _ _ _ _ _ _ _ _ _ _)
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
/-- Every weakly fair execution of the program terminates, and every final state has every array of the pipeline at
    what the proof data says and every other buffer as the host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end and its two argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.KICases.lean ====
/-
  What each case of the body leaves, as the body's arithmetic: the running maximum and the running denominator after a
  first half and after a second half, and the output block after a second half, each as the named term of the body's
  arithmetic over the blocks the point reads and what the point before left.
-/
import proofs.«106281_j5669356833568_2_alg».proof.Proof.KIFrame
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two zero offsets, spelt as a constant function. -/
theorem off2_zero : (![0, 0] : Fin 2 → Nat) = fun _ => 0 := funext fun a => by fin_cases a <;> rfl
/-- The three zero offsets, spelt as a constant function. -/
theorem off3_zero : (![0, 0, 0] : Fin 3 → Nat) = fun _ => 0 := funext fun a => by fin_cases a <;> rfl

/-! ## A first half: the scratch is reset, then updated from this half alone -/

section CaseA
variable (c : Dev nD) (i : grid0.Coords) (arg2 : Memref sig .tc .vmem S1x19x8192 .f32) (harg2 : arg2.IsWhole) (arg3 : Memref sig .tc .vmem S1x512x8192 .f32) (harg3 : arg3.IsWhole) (arg4 : Memref sig .tc .vmem S1x19x512 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : cond0_0 i) (hc1 : ¬cond0_1 i)
  (x0 : Vec F S1x19x8192 .f32) (x1 : Vec F S1x512x8192 .f32)

/-- The running maximum after a first half: the half's maximum against the reset value. -/
theorem sA0 : sout0_A_0 c i arg2 harg2 arg3 harg3 arg4 harg4 arg5 harg5 arg6 harg6 arg7 harg7 hc0 hc1 x0 x1 = k0_pay2 (k0_pay8 x0 (k0_pay4 (F := F))) := by
  unfold sout0_A_0
  rw [View.read_writes_junk_eq_canon]
  unfold kernelRun0_A
  dsimp only
  sl_unfold_words
  rw [View.canon_cons_unit_zero (S := S19x1) off2_zero]
  simp only [View.readCov_unit_zero (S := S19x1) _ off2_zero, View.readAt_eq_ld, harg2.read_unread,
    View.ld_unit_zero (S := S1x19x8192) off3_zero]

/-- The running denominator after a first half: the update of the reset denominator against the reset maximum. -/
theorem sA1 : sout0_A_1 c i arg2 harg2 arg3 harg3 arg4 harg4 arg5 harg5 arg6 harg6 arg7 harg7 hc0 hc1 x0 x1
    = k0_pay12 x0 (k0_pay4 (F := F)) (k0_pay4 (F := F)) (k0_pay5 (F := F)) := by
  unfold sout0_A_1
  rw [View.read_writes_junk_eq_canon]
  unfold kernelRun0_A
  dsimp only
  sl_unfold_words
  rw [View.canon_cons_unit_zero (S := S19x1) off2_zero]
  simp only [View.readCov_unit_zero (S := S19x1) _ off2_zero, View.readAt_eq_ld, harg2.read_unread,
    View.ld_unit_zero (S := S1x19x8192) off3_zero]

end CaseA

/-! ## A second half: the scratch is updated from what the first half left, and the quotient is stored -/

section CaseB
variable (c : Dev nD) (i : grid0.Coords) (arg2 : Memref sig .tc .vmem S1x19x8192 .f32) (harg2 : arg2.IsWhole) (arg3 : Memref sig .tc .vmem S1x512x8192 .f32) (harg3 : arg3.IsWhole) (arg4 : Memref sig .tc .vmem S1x19x512 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (hc0 : ¬cond0_0 i) (hc1 : cond0_1 i)
  (x0 : Vec F S1x19x8192 .f32) (x1 : Vec F S1x512x8192 .f32) (xs0 : Vec F S19x1 .f32) (xs1 : Vec F S19x1 .f32) (xs2 : Vec F S19x512 .f32)

/-- The running maximum after a second half: this half's maximum against the one before. -/
theorem sB0 : sout0_B_0 c i arg2 harg2 arg3 harg3 arg4 harg4 arg5 harg5 arg6 harg6 arg7 harg7 hc0 hc1 x0 x1 xs0 xs1 xs2 = k0_pay2 (k0_pay8 x0 xs0) := by
  unfold sout0_B_0
  rw [View.read_writes_junk_eq_canon]
  unfold kernelRun0_B
  dsimp only
  sl_unfold_words
  rw [View.canon_unit_zero (S := S19x1) off2_zero]
  simp only [View.readAt_eq_ld, harg2.read_unread, harg5.read_unread,
    View.ld_unit_zero (S := S1x19x8192) off3_zero, View.ld_unit_zero (S := S19x1) off2_zero]

/-- The running denominator after a second half: the update of the one before against the maximum before. -/
theorem sB1 : sout0_B_1 c i arg2 harg2 arg3 harg3 arg4 harg4 arg5 harg5 arg6 harg6 arg7 harg7 hc0 hc1 x0 x1 xs0 xs1 xs2 = k0_pay12 x0 xs0 xs0 xs1 := by
  unfold sout0_B_1
  rw [View.read_writes_junk_eq_canon]
  unfold kernelRun0_B
  dsimp only
  sl_unfold_words
  rw [View.canon_unit_zero (S := S19x1) off2_zero]
  simp only [View.readAt_eq_ld, harg2.read_unread, harg5.read_unread, harg6.read_unread,
    View.ld_unit_zero (S := S1x19x8192) off3_zero, View.ld_unit_zero (S := S19x1) off2_zero]

/-- The output block after a second half: the quotient of the numerator and the denominator the same point leaves. -/
theorem oB2 : out0_B_2 c i arg2 harg2 arg3 harg3 arg4 harg4 arg5 harg5 arg6 harg6 arg7 harg7 hc0 hc1 x0 x1 xs0 xs1 xs2
    = k0_pay3 (sout0_B_2 c i arg2 harg2 arg3 harg3 arg4 harg4 arg5 harg5 arg6 harg6 arg7 harg7 hc0 hc1 x0 x1 xs0 xs1 xs2) (sout0_B_1 c i arg2 harg2 arg3 harg3 arg4 harg4 arg5 harg5 arg6 harg6 arg7 harg7 hc0 hc1 x0 x1 xs0 xs1 xs2) := by
  unfold out0_B_2 sout0_B_2 sout0_B_1
  simp only [View.read_writes_junk_eq_canon]
  unfold kernelRun0_B
  dsimp only
  sl_unfold_words
  rw [View.canon_unit_zero (S := S1x19x512) off3_zero]
  simp only [View.canon_unit_zero (S := S19x1) off2_zero, View.readCov_unit_zero (S := S19x1) _ off2_zero, View.readAt_eq_ld,
    View.read_writes_junk_eq_canon, harg2.read_unread, harg5.read_unread, harg6.read_unread, harg7.read_unread,
    View.ld_unit_zero (S := S1x19x8192) off3_zero, View.ld_unit_zero (S := S19x1) off2_zero, View.ld_unit_zero (S := S19x512) off2_zero]

end CaseB

end Cert.KernelIdeal.Body

end
-- ==== Proof.Spec.lean ====
/-
  Softmax pooling over a spatial axis, two ways, on the extended reals.

  For one batch entry `b` and one class `k` the weights are the softmax of the 16384 scores `P b k ·`, and the pooled
  feature of channel `c` is the weighted sum of `Fe b c ·`.

  * The direct form (`refCtx`): subtract the maximum `M` of all scores, exponentiate, divide every weight by their sum
    `L`, and sum the weighted features.
  * The streamed form (`kerCtx`): the scores are met in two halves of 8192. A running maximum `m`, a running
    denominator `l` and a running numerator `acc` start at −∞, 0, 0; each half rescales what was accumulated so far by
    `exp (m_old − m_new)` and adds its own terms taken against the new maximum; the quotient `acc / l` is taken once,
    after the second half.

  The three float constants are kept as their bit patterns' values (`negInf`, `one`, `zero`).
-/
import Idealize.ShloMosaic.PureOps.Ideal
import Idealize.ShloMosaic.PureOps.Ideal.Laws

noncomputable section

namespace Cert.Pool

open Idealize.ShloMosaic

/-- The value of the pattern `0xFF800000`: −∞. -/
def negInf : EReal := Ideal.ofBits .f32 0xFF800000#32
/-- The value of the pattern `0x3F800000`: 1. -/
def one : EReal := Ideal.ofBits .f32 0x3F800000#32
/-- The value of the pattern `0x00000000`: 0. -/
def zero : EReal := Ideal.ofBits .f32 0x00000000#32

/-- Position `j` of half `t` among the 16384 positions. -/
def tileIdx (t : Fin 2) (j : Fin 8192) : Fin 16384 :=
  ⟨t.val * 8192 + j.val, by have := t.isLt; have := j.isLt; omega⟩

variable (P : Fin 8 → Fin 19 → Fin 16384 → EReal) (Fe : Fin 8 → Fin 512 → Fin 16384 → EReal)

/-! ## The streamed form -/

/-- The scaled score at position `j` of half `t`. -/
def pt (b : Fin 8) (k : Fin 19) (t : Fin 2) (j : Fin 8192) : EReal := P b k (tileIdx t j) * one
/-- The maximum of half `t`'s scores, from −∞. -/
def bmax (b : Fin 8) (k : Fin 19) (t : Fin 2) : EReal :=
  (Finset.univ : Finset (Fin 8192)).fold max negInf (pt P b k t)
/-- The running maximum after half `t`, from the one before (`mp`). -/
def mNew (mp : EReal) (b : Fin 8) (k : Fin 19) (t : Fin 2) : EReal := max mp (bmax P b k t)
/-- The factor that rescales what was accumulated against `mp`. -/
def alpha (mp : EReal) (b : Fin 8) (k : Fin 19) (t : Fin 2) : EReal := Ideal.exp (mp - mNew P mp b k t)
/-- Half `t`'s unnormalised weights against the new maximum. -/
def ew (mp : EReal) (b : Fin 8) (k : Fin 19) (t : Fin 2) (j : Fin 8192) : EReal :=
  Ideal.exp (pt P b k t j - mNew P mp b k t)
/-- The running denominator after half `t`. -/
def lNew (mp lp : EReal) (b : Fin 8) (k : Fin 19) (t : Fin 2) : EReal :=
  alpha P mp b k t * lp + ∑ j : Fin 8192, ew P mp b k t j
/-- The running numerator of channel `c` after half `t`. -/
def accNew (mp ap : EReal) (b : Fin 8) (k : Fin 19) (c : Fin 512) (t : Fin 2) : EReal :=
  alpha P mp b k t * ap + ∑ j : Fin 8192, ew P mp b k t j * Fe b c (tileIdx t j)

def m0 (b : Fin 8) (k : Fin 19) : EReal := mNew P negInf b k 0
def l0 (b : Fin 8) (k : Fin 19) : EReal := lNew P negInf zero b k 0
def acc0 (b : Fin 8) (k : Fin 19) (c : Fin 512) : EReal := accNew P Fe negInf zero b k c 0
def m1 (b : Fin 8) (k : Fin 19) : EReal := mNew P (m0 P b k) b k 1
def l1 (b : Fin 8) (k : Fin 19) : EReal := lNew P (m0 P b k) (l0 P b k) b k 1
def acc1 (b : Fin 8) (k : Fin 19) (c : Fin 512) : EReal := accNew P Fe (m0 P b k) (acc0 P Fe b k c) b k c 1

/-- The streamed form's pooled feature. -/
def kerCtx (b : Fin 8) (k : Fin 19) (c : Fin 512) : EReal := Ideal.div (acc1 P Fe b k c) (l1 P b k)

/-! ## The direct form -/

def rp (b : Fin 8) (k : Fin 19) (s : Fin 16384) : EReal := one * P b k s
def rMax (b : Fin 8) (k : Fin 19) : EReal :=
  max negInf ((Finset.univ : Finset (Fin 16384)).fold max negInf (rp P b k))
def rE (b : Fin 8) (k : Fin 19) (s : Fin 16384) : EReal := Ideal.exp (rp P b k s - rMax P b k)
def rL (b : Fin 8) (k : Fin 19) : EReal := zero + ∑ s : Fin 16384, rE P b k s
/-- The direct form's pooled feature. -/
def refCtx (b : Fin 8) (k : Fin 19) (c : Fin 512) : EReal :=
  ∑ s : Fin 16384, Ideal.div (rE P b k s) (rL P b k) * Fe b c s

end Cert.Pool

end
-- ==== Proof.PayIdx.lean ====
/-
  The kernel body's arithmetic read at an index: each payload of the streamed softmax pooling, at explicit
  coordinates, as an expression over the extended reals in the entries of the values it is computed from.
-/
import proofs.«106281_j5669356833568_2_alg».proof.Proof.Gen.KernelIdeal.Skeleton
import proofs.«106281_j5669356833568_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.PayIdx

open Idealize.ShloMosaic ValueIdx Cert.KernelIdeal Cert.KernelIdeal.Gen

/-! ## Columns: a vector as a one-column matrix, and a column spread over the columns of a matrix -/

section Columns
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

/-- The reduced index `k` with position `j` put back on the second axis is `(k, j)`. -/
theorem lift_ix1 (h : S19x8192.Reduces [1] S19) (k : Fin 19) (j : Fin (S19x8192.size 1)) :
    h.lift (ix1 k) j = ix2 k (⟨j.val, j.isLt⟩ : Fin 8192) := by
  funext c; apply Fin.ext
  match c with
  | ⟨0, _⟩ => rfl
  | ⟨1, _⟩ => rfl

/-! ## The payloads -/

/-- The scaled scores of the block: the score times the value of the pattern of one. -/
theorem pay7_apply (x0 : Vec Ideal S1x19x8192 .f32) (k : Fin 19) (j : Fin 8192) (z : Fin 1) :
    k0_pay7 x0 (ix2 k j) = x0 (ix3 z k j) * Pool.one := by
  obtain rfl : z = 0 := Subsingleton.elim _ _
  unfold k0_pay7
  exact congrArg (· * Pool.one) (shapeCast_1ab_ab_apply x0 shapeCasts_S1x19x8192_S19x8192 k j)

/-- The running maximum after the block: the maximum of the one before and the block's scaled scores' maximum from
    the value of the pattern of minus infinity. -/
theorem pay8_apply (x0 : Vec Ideal S1x19x8192 .f32) (m : Vec Ideal S19x1 .f32) (k : Fin 19) (z : Fin 1) :
    k0_pay8 x0 m (ix2 k z)
      = max (m (ix2 k z)) ((Finset.univ : Finset (Fin 8192)).fold max Pool.negInf (fun j => x0 (ix3 0 k j) * Pool.one)) := by
  unfold k0_pay8
  refine congrArg (max (m (ix2 k z))) ?_
  refine (shapeCast_a_a1_apply _ shapeCasts_S19_S19x1 k z).trans ?_
  refine (Ideal.multiReduction_maximumf_single (k0_pay7 x0) 0xFF800000#32 reduces_S19x8192_S19 (.inl rfl) rfl (ix1 k)).trans ?_
  have hf : (k0_pay7 x0 ∘ reduces_S19x8192_S19.lift (ix1 k)) = fun j : Fin 8192 => x0 (ix3 0 k j) * Pool.one :=
    funext fun j => (congrArg (k0_pay7 x0) (lift_ix1 reduces_S19x8192_S19 k j)).trans (pay7_apply x0 k _ 0)
  rw [hf]
  rfl

/-- The factor that rescales what was accumulated against the maximum before. -/
theorem pay9_apply (x0 : Vec Ideal S1x19x8192 .f32) (m m' : Vec Ideal S19x1 .f32) (k : Fin 19) (z : Fin 1) :
    k0_pay9 x0 m m' (ix2 k z) = Ideal.exp (m' (ix2 k z) - k0_pay8 x0 m (ix2 k z)) := rfl

/-- The block's unnormalised weights against the new maximum. -/
theorem pay10_apply (x0 : Vec Ideal S1x19x8192 .f32) (m : Vec Ideal S19x1 .f32) (k : Fin 19) (j : Fin 8192) :
    k0_pay10 x0 m (ix2 k j) = Ideal.exp (x0 (ix3 0 k j) * Pool.one - k0_pay8 x0 m (ix2 k 0)) := by
  unfold k0_pay10
  show Ideal.exp (k0_pay7 x0 (ix2 k j) - broadcastTo S19x8192 (k0_pay8 x0 m) broadcasts_S19x1_S19x8192 (ix2 k j)) = _
  rw [pay7_apply x0 k j 0, broadcastTo_a1_ab_apply]

/-- The weights in the narrower format are the weights. -/
theorem pay11_apply (x0 : Vec Ideal S1x19x8192 .f32) (m : Vec Ideal S19x1 .f32) (k : Fin 19) (j : Fin 8192) :
    k0_pay11 x0 m (ix2 k j) = k0_pay10 x0 m (ix2 k j) := rfl

/-- The running denominator after the block. -/
theorem pay12_apply (x0 : Vec Ideal S1x19x8192 .f32) (m m' l : Vec Ideal S19x1 .f32) (k : Fin 19) (z : Fin 1) :
    k0_pay12 x0 m m' l (ix2 k z)
      = k0_pay9 x0 m m' (ix2 k z) * l (ix2 k z) + ∑ j : Fin 8192, k0_pay10 x0 m (ix2 k j) := by
  unfold k0_pay12
  refine (congrFun (shapeCast_self _ shapeCasts_S19x1_S19x1) (ix2 k z)).trans ?_
  refine congrArg (k0_pay9 x0 m m' (ix2 k z) * l (ix2 k z) + ·) ?_
  refine (shapeCast_a_a1_apply _ shapeCasts_S19_S19x1 k z).trans ?_
  refine (Ideal.multiReduction_add_single (k0_pay10 x0 m) 0x00000000#32 reduces_S19x8192_S19 (.inl rfl) rfl (ix1 k)).trans ?_
  exact Finset.sum_congr rfl fun j _ => congrArg (k0_pay10 x0 m) (lift_ix1 reduces_S19x8192_S19 k j)

/-- The accumulated numerators rescaled. -/
theorem pay13_apply (x0 : Vec Ideal S1x19x8192 .f32) (m m' : Vec Ideal S19x1 .f32) (a : Vec Ideal S19x512 .f32)
    (k : Fin 19) (c : Fin 512) :
    k0_pay13 x0 m m' a (ix2 k c) = k0_pay9 x0 m m' (ix2 k 0) * a (ix2 k c) := by
  unfold k0_pay13
  refine (congrFun (shapeCast_self _ shapeCasts_S19x512_S19x512) (ix2 k c)).trans ?_
  exact congrArg (· * a (ix2 k c)) (broadcastTo_a1_ab_apply (k0_pay9 x0 m m') broadcasts_S19x1_S19x512 k c)

/-- The maximum is stored as it is. -/
theorem pay2_apply (m : Vec Ideal S19x1 .f32) (k : Fin 19) (z : Fin 1) :
    k0_pay2 (F := Ideal) m (ix2 k z) = m (ix2 k z) := by
  unfold k0_pay2
  exact congrFun (shapeCast_self _ shapeCasts_S19x1_S19x1) (ix2 k z)

/-- The quotient of a numerator by its row's denominator. -/
theorem pay3_apply (a : Vec Ideal S19x512 .f32) (l : Vec Ideal S19x1 .f32) (z : Fin 1) (k : Fin 19) (c : Fin 512) :
    k0_pay3 a l (ix3 z k c) = Ideal.div (a (ix2 k c)) (l (ix2 k 0)) := by
  unfold k0_pay3
  refine (shapeCast_ab_1ab_apply _ shapeCasts_S19x512_S1x19x512 z k c).trans ?_
  exact congrArg (Ideal.div (a (ix2 k c))) (broadcastTo_a1_ab_apply l broadcasts_S19x1_S19x512 k c)

/-- The maximum starts at the value of the pattern of minus infinity. -/
theorem pay4_apply (k : Fin 19) (z : Fin 1) : k0_pay4 (F := Ideal) (ix2 k z) = Pool.negInf := by
  unfold k0_pay4
  exact congrFun (shapeCast_self _ shapeCasts_S19x1_S19x1) (ix2 k z)

/-- The denominator starts at the value of the zero pattern. -/
theorem pay5_apply (k : Fin 19) (z : Fin 1) : k0_pay5 (F := Ideal) (ix2 k z) = Pool.zero := by
  unfold k0_pay5
  exact congrFun (shapeCast_self _ shapeCasts_S19x1_S19x1) (ix2 k z)

/-- The numerators start at the value of the zero pattern. -/
theorem pay6_apply (k : Fin 19) (c : Fin 512) : k0_pay6 (F := Ideal) (ix2 k c) = Pool.zero := by
  unfold k0_pay6
  exact congrFun (shapeCast_self _ shapeCasts_S19x512_S19x512) (ix2 k c)

/-! ## The product with the features' block -/

/-- The left operand is read at the output's row … -/
theorem dot_lhs_0 (i : S19x128.Idx) (q : dot_S19x8192_S128x8192_S19x128_1_1_0_0_n_n.contr.Idx) :
    (dot_S19x8192_S128x8192_S19x128_1_1_0_0_n_n.lhsIdx i q 0).val = (i 0).val := by
  unfold DotDims.lhsIdx
  rw [dif_neg (show ¬(0 : Fin S19x8192.rank) ∈ dot_S19x8192_S128x8192_S19x128_1_1_0_0_n_n.lhsBatch by decide),
    dif_pos (show (0 : Fin S19x8192.rank) ∈ dot_S19x8192_S128x8192_S19x128_1_1_0_0_n_n.lhsNonContracting by decide)]
  rfl

/-- … and the contracted position; -/
theorem dot_lhs_1 (i : S19x128.Idx) (q : dot_S19x8192_S128x8192_S19x128_1_1_0_0_n_n.contr.Idx) :
    (dot_S19x8192_S128x8192_S19x128_1_1_0_0_n_n.lhsIdx i q 1).val = (q ⟨0, by decide⟩).val :=
  dot_S19x8192_S128x8192_S19x128_1_1_0_0_n_n.lhsIdx_val_of_single rfl i q

/-- the right operand at the output's column … -/
theorem dot_rhs_0 (i : S19x128.Idx) (q : dot_S19x8192_S128x8192_S19x128_1_1_0_0_n_n.contr.Idx) :
    (dot_S19x8192_S128x8192_S19x128_1_1_0_0_n_n.rhsIdx i q 0).val = (i 1).val := by
  unfold DotDims.rhsIdx
  rw [dif_neg (show ¬(0 : Fin S128x8192.rank) ∈ dot_S19x8192_S128x8192_S19x128_1_1_0_0_n_n.rhsBatch by decide),
    dif_pos (show (0 : Fin S128x8192.rank) ∈ dot_S19x8192_S128x8192_S19x128_1_1_0_0_n_n.rhsNonContracting by decide)]
  rfl

/-- … and the contracted position. -/
theorem dot_rhs_1 (i : S19x128.Idx) (q : dot_S19x8192_S128x8192_S19x128_1_1_0_0_n_n.contr.Idx) :
    (dot_S19x8192_S128x8192_S19x128_1_1_0_0_n_n.rhsIdx i q 1).val = (q ⟨0, by decide⟩).val :=
  dot_S19x8192_S128x8192_S19x128_1_1_0_0_n_n.rhsIdx_val_of_single rfl i q

/-- A block of 128 channels' numerators after the block of positions: what was there plus the weights' products with
    the features, summed over the positions. -/
theorem pay1_apply (v17 : FVec Ideal S19x8192 .bf16) (v45 : Vec Ideal S1x128x8192 .f32) (v50 : Vec Ideal S19x128 .f32)
    (k : Fin 19) (cc : Fin 128) :
    k0_pay1 v17 v45 v50 (ix2 k cc) = v50 (ix2 k cc) + ∑ j : Fin 8192, v17 (ix2 k j) * v45 (ix3 0 cc j) := by
  unfold k0_pay1
  refine (congrFun (shapeCast_self _ shapeCasts_S19x128_S19x128) (ix2 k cc)).trans ?_
  refine congrArg (v50 (ix2 k cc) + ·) ?_
  refine (Ideal.matmul_constant_zero_apply dot_S19x8192_S128x8192_S19x128_1_1_0_0_n_n none v17 _ (ix2 k cc)).trans ?_
  rw [← Equiv.sum_comp (contrEquiv1 dot_S19x8192_S128x8192_S19x128_1_1_0_0_n_n 8192 rfl rfl).symm]
  refine Finset.sum_congr rfl fun j _ => ?_
  have hj := contrEquiv1_symm_val dot_S19x8192_S128x8192_S19x128_1_1_0_0_n_n 8192 rfl rfl j
  have el : dot_S19x8192_S128x8192_S19x128_1_1_0_0_n_n.lhsIdx (ix2 k cc)
      ((contrEquiv1 dot_S19x8192_S128x8192_S19x128_1_1_0_0_n_n 8192 rfl rfl).symm j) = ix2 k j :=
    funext fun a => Fin.ext (by
      match a with
      | ⟨0, _⟩ => exact dot_lhs_0 _ _
      | ⟨1, _⟩ => exact (dot_lhs_1 _ _).trans hj)
  have er : dot_S19x8192_S128x8192_S19x128_1_1_0_0_n_n.rhsIdx (ix2 k cc)
      ((contrEquiv1 dot_S19x8192_S128x8192_S19x128_1_1_0_0_n_n 8192 rfl rfl).symm j) = ix2 cc j :=
    funext fun a => Fin.ext (by
      match a with
      | ⟨0, _⟩ => exact dot_rhs_0 _ _
      | ⟨1, _⟩ => exact (dot_rhs_1 _ _).trans hj)
  rw [el, er]
  exact congrArg (v17 (ix2 k j) * ·) (shapeCast_1ab_ab_apply v45 shapeCasts_S1x128x8192_S128x8192 cc j)

end Cert.PayIdx

end
-- ==== Proof.KILoop.lean ====
/-
  The numerator's counted loop.

  The running numerator is a 19 × 512 array updated in four column chunks of 128: trip k adds to chunk k the product of
  the half's weights (19 × 8192) with rows 128 k … 128 k + 127 of the features' block, contracted over the 8192
  positions, and leaves the other chunks alone. So after the four trips every entry (k, c) has gained
  ∑ⱼ w(k, j) · f(c, j) over what the loop found there — first as a statement about the chunks for any float
  interpretation, then entry by entry on the extended reals.
-/
import proofs.«106281_j5669356833568_2_alg».proof.Proof.KIFrame
import Idealize.ShloMosaic.Lib.Pipeline.Value
import Idealize.ShloMosaic.Lib.ValueIdx
import proofs.«106281_j5669356833568_2_alg».proof.Proof.PayIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One trip of the counted loop as a list of pieces: the one piece it stores, over the contents it finds. -/
theorem tripL_eq (c : Dev nD) (i : grid0.Coords) (arg2 : Memref sig .tc .vmem S1x19x8192 .f32) (harg2 : arg2.IsWhole) (arg3 : Memref sig .tc .vmem S1x512x8192 .f32) (harg3 : arg3.IsWhole) (arg4 : Memref sig .tc .vmem S1x19x512 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (v17 : FVec F S19x8192 .bf16) (X : BufTy.Contents (Elt F) arg3.view.ty) (k : Fin k0_t1_loop.trips) (f : BufTy.Contents (Elt F) arg7.view.ty) :
    tripL_k0_t1 (F := F) Variants.none c none i arg2 harg2 arg3 harg3 arg4 harg4 arg5 harg5 arg6 harg6 arg7 harg7 v17 X k f
      = [⟨Rect.unit (s := S19x512) (k0_off2 k) S19x128.size (k0_off2_inb k),
          k0_pay1 v17 (View.readAt (Elt F) arg3.view (Rect.unit (s := S1x512x8192) (k0_off1 k) S1x128x8192.size (k0_off1_inb k)).toLoadRect X)
            (View.readAt (Elt F) arg7.view (Rect.unit (s := S19x512) (k0_off2 k) S19x128.size (k0_off2_inb k)).toLoadRect f)⟩] := by
  unfold tripL_k0_t1 trip_k0_t1
  rfl

theorem trips_eq : k0_t1_loop.trips = 4 := by decide

/-- The numerator's chunk `k`: columns 128 k … 128 k + 127. -/
abbrev rectN (k : Fin k0_t1_loop.trips) : Rect S19x512 := Rect.unit (s := S19x512) (k0_off2 k) S19x128.size (k0_off2_inb k)
/-- The features' chunk `k`: rows 128 k … 128 k + 127. -/
abbrev rectF (k : Fin k0_t1_loop.trips) : Rect S1x512x8192 := Rect.unit (s := S1x512x8192) (k0_off1 k) S1x128x8192.size (k0_off1_inb k)

/-- One trip on the numerator as a function: chunk `k` receives the payload of the weights, the features' chunk and
    the numerator's own chunk; the other columns stay. -/
def stepN (v17 : FVec F S19x8192 .bf16) (x1 : Vec F S1x512x8192 .f32) (k : Fin k0_t1_loop.trips) (C : S19x512.Idx → Elt F .f32) : S19x512.Idx → Elt F .f32 :=
  (rectN k).overlay C (k0_pay1 v17 (View.ld x1 (rectF k)) (View.ld C (rectN k)))

/-- The numerator before trip `n`. -/
def iterN (v17 : FVec F S19x8192 .bf16) (x1 : Vec F S1x512x8192 .f32) (a0 : S19x512.Idx → Elt F .f32) : ℕ → S19x512.Idx → Elt F .f32
  | 0 => a0
  | n + 1 => if h : n < k0_t1_loop.trips then stepN v17 x1 ⟨n, h⟩ (iterN v17 x1 a0 n) else iterN v17 x1 a0 n

theorem hz2 : (![0, 0] : Fin 2 → Nat) = fun _ => 0 := funext fun a => by fin_cases a <;> rfl

/-- The pieces of the trips before `n`, over a numerator stored whole before the loop, read as that iteration. -/
theorem canon_pb (c : Dev nD) (i : grid0.Coords) (arg2 : Memref sig .tc .vmem S1x19x8192 .f32) (harg2 : arg2.IsWhole) (arg3 : Memref sig .tc .vmem S1x512x8192 .f32) (harg3 : arg3.IsWhole) (arg4 : Memref sig .tc .vmem S1x19x512 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole) (v17 : FVec F S19x8192 .bf16) (x1 : Vec F S1x512x8192 .f32) (a0 : Vec F S19x512 .f32) (T : List (View.Piece (Elt F) S19x512 .f32)) (n : ℕ) (hn : n ≤ k0_t1_loop.trips) :
    View.canon (pb_k0_t1 (F := F) Variants.none c none i arg2 harg2 arg3 harg3 arg4 harg4 arg5 harg5 arg6 harg6 arg7 harg7 v17 (harg3.unread x1)
        (arg7.view.writes (Elt F) arg7.view.junk (⟨Rect.unit (s := S19x512) ![0, 0] S19x512.size inb_S19x512_S19x512_0_0, a0⟩ :: T)) n
      ++ (⟨Rect.unit (s := S19x512) ![0, 0] S19x512.size inb_S19x512_S19x512_0_0, a0⟩ :: T))
    = iterN v17 x1 a0 n := by
  induction n with
  | zero =>
    show View.canon ([] ++ (_ :: T)) = a0
    rw [List.nil_append, View.canon_cons_unit_zero hz2]
  | succ n ih =>
    have hlt : n < k0_t1_loop.trips := hn
    rw [show n + 1 = (⟨n, hlt⟩ : Fin k0_t1_loop.trips).val + 1 from rfl, pb_k0_t1_succ, tripL_eq]
    rw [List.append_assoc, List.singleton_append, View.canon_cons]
    dsimp only
    rw [← View.writes_append, View.readAt_writes_junk_eq_canon, ih (Nat.le_of_lt hlt), View.readAt_eq_ld, harg3.read_unread]
    show _ = iterN v17 x1 a0 (n + 1)
    rw [iterN, dif_pos hlt]
    rfl

/-- Trip `q` as an element of the loop's trip range. -/
def tq (q : Fin 4) : Fin k0_t1_loop.trips := ⟨q.val, by rw [trips_eq]; exact q.isLt⟩

/-- Column `cc` of chunk `q`. -/
def colIdx (q : Fin 4) (cc : Fin 128) : Fin 512 := ⟨128 * q.val + cc.val, by have := q.isLt; have := cc.isLt; omega⟩

theorem emb_rectN (q : Fin 4) (kk : Fin 19) (cc : Fin 128) :
    (rectN (tq q)).emb (ValueIdx.ix2 kk cc) = ValueIdx.ix2 kk (colIdx q cc) := by
  funext a; apply Fin.ext
  rw [Rect.emb_apply]
  have e := k0_off2_eq (tq q)
  match a with
  | ⟨0, _⟩ => show k0_off2 (tq q) 0 + 1 * kk.val = kk.val; rw [e]; show 0 + 1 * kk.val = kk.val; omega
  | ⟨1, _⟩ => show k0_off2 (tq q) 1 + 1 * cc.val = 128 * q.val + cc.val; rw [e]; show 128 * q.val + 1 * cc.val = _; omega

theorem mem_rectN (q q' : Fin 4) (kk : Fin 19) (cc : Fin 128) :
    ValueIdx.ix2 kk (colIdx q cc) ∈ (rectN (tq q')).set ↔ q = q' := by
  rw [Rect.mem_set_unit]
  have e := k0_off2_eq (tq q')
  constructor
  · intro h
    have h1 := h (1 : Fin 2)
    rw [e] at h1
    have h1' : 128 * q'.val ≤ 128 * q.val + cc.val ∧ 128 * q.val + cc.val < 128 * q'.val + 128 := h1
    have := cc.isLt
    exact Fin.ext (by omega)
  · rintro rfl a
    rw [e]
    match a with
    | ⟨0, _⟩ => show 0 ≤ kk.val ∧ kk.val < 0 + 19; have := kk.isLt; omega
    | ⟨1, _⟩ => show 128 * q.val ≤ 128 * q.val + cc.val ∧ 128 * q.val + cc.val < 128 * q.val + 128; have := cc.isLt; omega

/-- Before trip `n` the chunks of the earlier trips hold their payloads over the numerator the loop found, the others
    still what it found. -/
theorem iterN_apply (v17 : FVec F S19x8192 .bf16) (x1 : Vec F S1x512x8192 .f32) (a0 : S19x512.Idx → Elt F .f32) (n : ℕ) (hn : n ≤ 4)
    (kk : Fin 19) (q : Fin 4) (cc : Fin 128) :
    iterN v17 x1 a0 n (ValueIdx.ix2 kk (colIdx q cc))
      = if q.val < n then k0_pay1 v17 (View.ld x1 (rectF (tq q))) (View.ld a0 (rectN (tq q))) (ValueIdx.ix2 kk cc)
        else a0 (ValueIdx.ix2 kk (colIdx q cc)) := by
  induction n generalizing kk q cc with
  | zero => rw [if_neg (Nat.not_lt_zero _)]; rfl
  | succ n ih =>
    have hlt : n < k0_t1_loop.trips := by rw [trips_eq]; omega
    have hn' : n ≤ 4 := by omega
    rw [iterN, dif_pos hlt]
    unfold stepN
    by_cases hq : q.val = n
    · have etq : (⟨n, hlt⟩ : Fin k0_t1_loop.trips) = tq q := Fin.ext hq.symm
      rw [etq, ← emb_rectN q kk cc, Rect.overlay_emb, if_pos (by omega)]
      congr 1
      funext z
      show iterN v17 x1 a0 n ((rectN (tq q)).emb z) = a0 ((rectN (tq q)).emb z)
      have ez : z = ValueIdx.ix2 (⟨(z 0).val, (z 0).isLt⟩ : Fin 19) (⟨(z 1).val, (z 1).isLt⟩ : Fin 128) := by
        funext a; match a with | ⟨0, _⟩ => rfl | ⟨1, _⟩ => rfl
      rw [ez, emb_rectN, ih hn', if_neg (by omega)]
    · have hne : q ≠ (⟨n, by omega⟩ : Fin 4) := fun h => hq (by rw [h])
      have etq : (⟨n, hlt⟩ : Fin k0_t1_loop.trips) = tq (⟨n, by omega⟩ : Fin 4) := rfl
      rw [etq, Rect.overlay_of_not_mem _ _ _ (fun h => hne ((mem_rectN q _ kk cc).mp h)), ih hn']
      by_cases hq2 : q.val < n
      · rw [if_pos hq2, if_pos (by omega)]
      · rw [if_neg hq2, if_neg (by omega)]

theorem emb_rectF (q : Fin 4) (cc : Fin 128) (j : Fin 8192) :
    (rectF (tq q)).emb (ValueIdx.ix3 (0 : Fin 1) cc j) = ValueIdx.ix3 (0 : Fin 1) (colIdx q cc) j := by
  funext a; apply Fin.ext
  rw [Rect.emb_apply]
  have e := k0_off1_eq (tq q)
  match a with
  | ⟨0, _⟩ => show k0_off1 (tq q) 0 + 1 * 0 = 0; rw [e]; rfl
  | ⟨1, _⟩ => show k0_off1 (tq q) 1 + 1 * cc.val = 128 * q.val + cc.val; rw [e]; show 128 * q.val + 1 * cc.val = _; omega
  | ⟨2, _⟩ => show k0_off1 (tq q) 2 + 1 * j.val = j.val; rw [e]; show 0 + 1 * j.val = _; omega

/-- After the four trips, on the extended reals: every entry of the numerator has gained the weighted sum of its
    channel's features over the half's 8192 positions. -/
theorem numer_apply (v17 : FVec Ideal S19x8192 .bf16) (x1 : Vec Ideal S1x512x8192 .f32) (a0 : Vec Ideal S19x512 .f32)
    (kk : Fin 19) (col : Fin 512) :
    iterN v17 x1 a0 4 (ValueIdx.ix2 kk col)
      = a0 (ValueIdx.ix2 kk col) + ∑ j : Fin 8192, v17 (ValueIdx.ix2 kk j) * x1 (ValueIdx.ix3 (0 : Fin 1) col j) := by
  obtain ⟨q, cc, rfl⟩ : ∃ (q : Fin 4) (cc : Fin 128), col = colIdx q cc :=
    ⟨⟨col.val / 128, by have := col.isLt; omega⟩, ⟨col.val % 128, Nat.mod_lt _ (by decide)⟩, Fin.ext (by show col.val = 128 * (col.val / 128) + col.val % 128; omega)⟩
  rw [iterN_apply v17 x1 a0 4 le_rfl kk q cc, if_pos q.isLt, Cert.PayIdx.pay1_apply]
  show a0 ((rectN (tq q)).emb (ValueIdx.ix2 kk cc)) + ∑ j : Fin 8192, v17 (ValueIdx.ix2 kk j) * x1 ((rectF (tq q)).emb (ValueIdx.ix3 (0 : Fin 1) cc j)) = _
  rw [emb_rectN]
  simp only [emb_rectF]

theorem off3_z : (![0, 0, 0] : Fin 3 → Nat) = fun _ => 0 := funext fun a => by fin_cases a <;> rfl

section Numerators
variable (c : Dev nD) (i : grid0.Coords) (arg2 : Memref sig .tc .vmem S1x19x8192 .f32) (harg2 : arg2.IsWhole) (arg3 : Memref sig .tc .vmem S1x512x8192 .f32) (harg3 : arg3.IsWhole) (arg4 : Memref sig .tc .vmem S1x19x512 .f32) (harg4 : arg4.IsWhole) (arg5 : Memref sig .tc .vmem S19x1 .f32) (harg5 : arg5.IsWhole) (arg6 : Memref sig .tc .vmem S19x1 .f32) (harg6 : arg6.IsWhole) (arg7 : Memref sig .tc .vmem S19x512 .f32) (harg7 : arg7.IsWhole)

/-- The numerator a second half leaves, entry by entry: the rescaled numerator it found plus this half's weighted sum. -/
theorem sB2_apply (hc0 : ¬cond0_0 i) (hc1 : cond0_1 i)
    (x0 : Vec Ideal S1x19x8192 .f32) (x1 : Vec Ideal S1x512x8192 .f32) (xs0 : Vec Ideal S19x1 .f32) (xs1 : Vec Ideal S19x1 .f32) (xs2 : Vec Ideal S19x512 .f32)
    (kk : Fin 19) (col : Fin 512) :
    sout0_B_2 (F := Ideal) c i arg2 harg2 arg3 harg3 arg4 harg4 arg5 harg5 arg6 harg6 arg7 harg7 hc0 hc1 x0 x1 xs0 xs1 xs2 (ValueIdx.ix2 kk col)
      = k0_pay13 x0 xs0 xs0 xs2 (ValueIdx.ix2 kk col) + ∑ j : Fin 8192, k0_pay11 x0 xs0 (ValueIdx.ix2 kk j) * x1 (ValueIdx.ix3 (0 : Fin 1) col j) := by
  unfold sout0_B_2
  rw [View.read_writes_junk_eq_canon]
  unfold kernelRun0_B
  dsimp only
  sl_unfold_words
  simp only [View.readAt_eq_ld, harg2.read_unread, harg5.read_unread, harg7.read_unread,
    View.ld_unit_zero (S := S1x19x8192) off3_z, View.ld_unit_zero (S := S19x1) hz2, View.ld_unit_zero (S := S19x512) hz2]
  refine (congrFun (canon_pb (F := Ideal) c i arg2 harg2 arg3 harg3 arg4 harg4 arg5 harg5 arg6 harg6 arg7 harg7 (k0_pay11 x0 xs0) x1 (k0_pay13 x0 xs0 xs0 xs2) [] k0_t1_loop.trips le_rfl) _).trans ?_
  rw [trips_eq]
  exact numer_apply _ _ _ kk col

/-- The numerator a first half leaves: the same from the reset values. -/
theorem sA2_apply (hc0 : cond0_0 i) (hc1 : ¬cond0_1 i)
    (x0 : Vec Ideal S1x19x8192 .f32) (x1 : Vec Ideal S1x512x8192 .f32) (kk : Fin 19) (col : Fin 512) :
    sout0_A_2 (F := Ideal) c i arg2 harg2 arg3 harg3 arg4 harg4 arg5 harg5 arg6 harg6 arg7 harg7 hc0 hc1 x0 x1 (ValueIdx.ix2 kk col)
      = k0_pay13 x0 (k0_pay4 (F := Ideal)) (k0_pay4 (F := Ideal)) (k0_pay6 (F := Ideal)) (ValueIdx.ix2 kk col)
        + ∑ j : Fin 8192, k0_pay11 x0 (k0_pay4 (F := Ideal)) (ValueIdx.ix2 kk j) * x1 (ValueIdx.ix3 (0 : Fin 1) col j) := by
  unfold sout0_A_2
  rw [View.read_writes_junk_eq_canon]
  unfold kernelRun0_A
  dsimp only
  sl_unfold_words
  simp only [View.readCov_unit_zero (S := S19x1) _ hz2, View.readCov_unit_zero (S := S19x512) _ hz2, View.readAt_eq_ld,
    harg2.read_unread, View.ld_unit_zero (S := S1x19x8192) off3_z]
  refine (congrFun (canon_pb (F := Ideal) c i arg2 harg2 arg3 harg3 arg4 harg4 arg5 harg5 arg6 harg6 arg7 harg7 (k0_pay11 x0 (k0_pay4 (F := Ideal))) x1
    (k0_pay13 x0 (k0_pay4 (F := Ideal)) (k0_pay4 (F := Ideal)) (k0_pay6 (F := Ideal))) [⟨Rect.unit (s := S19x512) ![0, 0] S19x512.size inb_S19x512_S19x512_0_0, k0_pay6 (F := Ideal)⟩] k0_t1_loop.trips le_rfl) _).trans ?_
  rw [trips_eq]
  exact numer_apply _ _ _ kk col

end Numerators

end Cert.KernelIdeal.Body
end
-- ==== Proof.KIPoints.lean ====
/-
  A second half over the first half before it: what the output block and the three scratch buffers hold after an odd
  grid point, written over what the even point before it leaves — the recursion on the point unrolled by one step.
-/
import proofs.«106281_j5669356833568_2_alg».proof.Proof.KIFrame

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents after a point depend on the point's position only, not on how its bound is proved. -/
theorem outsAt0_congr (c : Dev nD) {n n' : ℕ} (h : n = n') (hn : n < cfg0.N) (hn' : n' < cfg0.N) :
    outsAt0 m c n hn = outsAt0 m c n' hn' := by
  subst h; rfl

/-! ## A second half `t` over the first half `t'` just before it -/

/-- All four contents after the second half `t`, over what the first half `t'` leaves. -/
theorem outsAt0_B_over_A (c : Dev nD) (t t' : Fin cfg0.N) (ht : t.val = t'.val + 1)
    (hA0 : cond0_0 (grid0.coords t')) (hA1 : ¬cond0_1 (grid0.coords t'))
    (hB0 : ¬cond0_0 (grid0.coords t)) (hB1 : cond0_1 (grid0.coords t)) :
    outsAt0 m c t.val t.isLt =
      (out0_B_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hB0 hB1 (iblk m c 0 t) (iblk m c 1 t)
        (sout0_A_0 c (grid0.coords t') (ms0_0 t') (hs0_0 t') (ms0_1 t') (hs0_1 t') (ms0_2 t') (hs0_2 t') scM0_0 (Memref.isWhole_whole _) scM0_1 (Memref.isWhole_whole _) scM0_2 (Memref.isWhole_whole _) hA0 hA1 (iblk m c 0 t') (iblk m c 1 t'))
        (sout0_A_1 c (grid0.coords t') (ms0_0 t') (hs0_0 t') (ms0_1 t') (hs0_1 t') (ms0_2 t') (hs0_2 t') scM0_0 (Memref.isWhole_whole _) scM0_1 (Memref.isWhole_whole _) scM0_2 (Memref.isWhole_whole _) hA0 hA1 (iblk m c 0 t') (iblk m c 1 t'))
        (sout0_A_2 c (grid0.coords t') (ms0_0 t') (hs0_0 t') (ms0_1 t') (hs0_1 t') (ms0_2 t') (hs0_2 t') scM0_0 (Memref.isWhole_whole _) scM0_1 (Memref.isWhole_whole _) scM0_2 (Memref.isWhole_whole _) hA0 hA1 (iblk m c 0 t') (iblk m c 1 t')),
       sout0_B_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hB0 hB1 (iblk m c 0 t) (iblk m c 1 t)
        (sout0_A_0 c (grid0.coords t') (ms0_0 t') (hs0_0 t') (ms0_1 t') (hs0_1 t') (ms0_2 t') (hs0_2 t') scM0_0 (Memref.isWhole_whole _) scM0_1 (Memref.isWhole_whole _) scM0_2 (Memref.isWhole_whole _) hA0 hA1 (iblk m c 0 t') (iblk m c 1 t'))
        (sout0_A_1 c (grid0.coords t') (ms0_0 t') (hs0_0 t') (ms0_1 t') (hs0_1 t') (ms0_2 t') (hs0_2 t') scM0_0 (Memref.isWhole_whole _) scM0_1 (Memref.isWhole_whole _) scM0_2 (Memref.isWhole_whole _) hA0 hA1 (iblk m c 0 t') (iblk m c 1 t'))
        (sout0_A_2 c (grid0.coords t') (ms0_0 t') (hs0_0 t') (ms0_1 t') (hs0_1 t') (ms0_2 t') (hs0_2 t') scM0_0 (Memref.isWhole_whole _) scM0_1 (Memref.isWhole_whole _) scM0_2 (Memref.isWhole_whole _) hA0 hA1 (iblk m c 0 t') (iblk m c 1 t')),
       sout0_B_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hB0 hB1 (iblk m c 0 t) (iblk m c 1 t)
        (sout0_A_0 c (grid0.coords t') (ms0_0 t') (hs0_0 t') (ms0_1 t') (hs0_1 t') (ms0_2 t') (hs0_2 t') scM0_0 (Memref.isWhole_whole _) scM0_1 (Memref.isWhole_whole _) scM0_2 (Memref.isWhole_whole _) hA0 hA1 (iblk m c 0 t') (iblk m c 1 t'))
        (sout0_A_1 c (grid0.coords t') (ms0_0 t') (hs0_0 t') (ms0_1 t') (hs0_1 t') (ms0_2 t') (hs0_2 t') scM0_0 (Memref.isWhole_whole _) scM0_1 (Memref.isWhole_whole _) scM0_2 (Memref.isWhole_whole _) hA0 hA1 (iblk m c 0 t') (iblk m c 1 t'))
        (sout0_A_2 c (grid0.coords t') (ms0_0 t') (hs0_0 t') (ms0_1 t') (hs0_1 t') (ms0_2 t') (hs0_2 t') scM0_0 (Memref.isWhole_whole _) scM0_1 (Memref.isWhole_whole _) scM0_2 (Memref.isWhole_whole _) hA0 hA1 (iblk m c 0 t') (iblk m c 1 t')),
       sout0_B_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hB0 hB1 (iblk m c 0 t) (iblk m c 1 t)
        (sout0_A_0 c (grid0.coords t') (ms0_0 t') (hs0_0 t') (ms0_1 t') (hs0_1 t') (ms0_2 t') (hs0_2 t') scM0_0 (Memref.isWhole_whole _) scM0_1 (Memref.isWhole_whole _) scM0_2 (Memref.isWhole_whole _) hA0 hA1 (iblk m c 0 t') (iblk m c 1 t'))
        (sout0_A_1 c (grid0.coords t') (ms0_0 t') (hs0_0 t') (ms0_1 t') (hs0_1 t') (ms0_2 t') (hs0_2 t') scM0_0 (Memref.isWhole_whole _) scM0_1 (Memref.isWhole_whole _) scM0_2 (Memref.isWhole_whole _) hA0 hA1 (iblk m c 0 t') (iblk m c 1 t'))
        (sout0_A_2 c (grid0.coords t') (ms0_0 t') (hs0_0 t') (ms0_1 t') (hs0_1 t') (ms0_2 t') (hs0_2 t') scM0_0 (Memref.isWhole_whole _) scM0_1 (Memref.isWhole_whole _) scM0_2 (Memref.isWhole_whole _) hA0 hA1 (iblk m c 0 t') (iblk m c 1 t'))) := by
  have e : outsAt0 m c (t.val - 1) (Nat.lt_of_le_of_lt (Nat.sub_le _ _) t.isLt) = outsAt0 m c t'.val t'.isLt :=
    outsAt0_congr m c (by omega) _ _
  rw [outsAt0_B m c t hB0 hB1, e, outsAt0_A m c t' hA0 hA1]

/-- The output block after the second half `t`. -/
theorem out_succ (c : Dev nD) (t t' : Fin cfg0.N) (ht : t.val = t'.val + 1)
    (hA0 : cond0_0 (grid0.coords t')) (hA1 : ¬cond0_1 (grid0.coords t'))
    (hB0 : ¬cond0_0 (grid0.coords t)) (hB1 : cond0_1 (grid0.coords t)) :
    (outsAt0 m c t.val t.isLt).1 =
      out0_B_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hB0 hB1 (iblk m c 0 t) (iblk m c 1 t)
        (sout0_A_0 c (grid0.coords t') (ms0_0 t') (hs0_0 t') (ms0_1 t') (hs0_1 t') (ms0_2 t') (hs0_2 t') scM0_0 (Memref.isWhole_whole _) scM0_1 (Memref.isWhole_whole _) scM0_2 (Memref.isWhole_whole _) hA0 hA1 (iblk m c 0 t') (iblk m c 1 t'))
        (sout0_A_1 c (grid0.coords t') (ms0_0 t') (hs0_0 t') (ms0_1 t') (hs0_1 t') (ms0_2 t') (hs0_2 t') scM0_0 (Memref.isWhole_whole _) scM0_1 (Memref.isWhole_whole _) scM0_2 (Memref.isWhole_whole _) hA0 hA1 (iblk m c 0 t') (iblk m c 1 t'))
        (sout0_A_2 c (grid0.coords t') (ms0_0 t') (hs0_0 t') (ms0_1 t') (hs0_1 t') (ms0_2 t') (hs0_2 t') scM0_0 (Memref.isWhole_whole _) scM0_1 (Memref.isWhole_whole _) scM0_2 (Memref.isWhole_whole _) hA0 hA1 (iblk m c 0 t') (iblk m c 1 t')) := by
  rw [outsAt0_B_over_A m c t t' ht hA0 hA1 hB0 hB1]

/-! ## The two halves of batch entry `b`: points `2b` and `2b + 1` of the sixteen -/

/-- The first half of batch entry `b`: point `2b`. -/
def firstHalf (b : Fin 8) : Fin cfg0.N := ⟨2 * b.val, by have := b.isLt; have : cfg0.N = 16 := N_0; omega⟩

theorem firstHalf_A0 (b : Fin 8) : cond0_0 (grid0.coords (firstHalf b)) :=
  (hcond0_0 (firstHalf b)).mpr (by show 2 * b.val % 2 = 0; omega)
theorem firstHalf_A1 (b : Fin 8) : ¬cond0_1 (grid0.coords (firstHalf b)) := fun h => by
  have := (hcond0_1 (firstHalf b)).mp h
  have e : (firstHalf b).val = 2 * b.val := rfl
  omega
theorem odd_B0 (b : Fin 8) (t : Fin cfg0.N) (ht : t.val = 2 * b.val + 1) : ¬cond0_0 (grid0.coords t) := fun h => by
  have := (hcond0_0 t).mp h; omega
theorem odd_B1 (b : Fin 8) (t : Fin cfg0.N) (ht : t.val = 2 * b.val + 1) : cond0_1 (grid0.coords t) :=
  (hcond0_1 t).mpr (by omega)

/-- The output block after the second half of batch entry `b` (the point `t` at position `2b + 1`), over what the
    first half (point `2b`) leaves. -/
theorem out_odd (c : Dev nD) (b : Fin 8) (t : Fin cfg0.N) (ht : t.val = 2 * b.val + 1) :
    (outsAt0 m c t.val t.isLt).1 =
      out0_B_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (odd_B0 b t ht) (odd_B1 b t ht) (iblk m c 0 t) (iblk m c 1 t)
        (sout0_A_0 c (grid0.coords (firstHalf b)) (ms0_0 (firstHalf b)) (hs0_0 (firstHalf b)) (ms0_1 (firstHalf b)) (hs0_1 (firstHalf b)) (ms0_2 (firstHalf b)) (hs0_2 (firstHalf b)) scM0_0 (Memref.isWhole_whole _) scM0_1 (Memref.isWhole_whole _) scM0_2 (Memref.isWhole_whole _) (firstHalf_A0 b) (firstHalf_A1 b) (iblk m c 0 (firstHalf b)) (iblk m c 1 (firstHalf b)))
        (sout0_A_1 c (grid0.coords (firstHalf b)) (ms0_0 (firstHalf b)) (hs0_0 (firstHalf b)) (ms0_1 (firstHalf b)) (hs0_1 (firstHalf b)) (ms0_2 (firstHalf b)) (hs0_2 (firstHalf b)) scM0_0 (Memref.isWhole_whole _) scM0_1 (Memref.isWhole_whole _) scM0_2 (Memref.isWhole_whole _) (firstHalf_A0 b) (firstHalf_A1 b) (iblk m c 0 (firstHalf b)) (iblk m c 1 (firstHalf b)))
        (sout0_A_2 c (grid0.coords (firstHalf b)) (ms0_0 (firstHalf b)) (hs0_0 (firstHalf b)) (ms0_1 (firstHalf b)) (hs0_1 (firstHalf b)) (ms0_2 (firstHalf b)) (hs0_2 (firstHalf b)) scM0_0 (Memref.isWhole_whole _) scM0_1 (Memref.isWhole_whole _) scM0_2 (Memref.isWhole_whole _) (firstHalf_A0 b) (firstHalf_A1 b) (iblk m c 0 (firstHalf b)) (iblk m c 1 (firstHalf b))) :=
  out_succ m c t (firstHalf b) ht (firstHalf_A0 b) (firstHalf_A1 b) (odd_B0 b t ht) (odd_B1 b t ht)

end Cert.KernelIdeal.Body

end
-- ==== Proof.StepSpec.lean ====
import proofs.«106281_j5669356833568_2_alg».proof.Proof.PayIdx
import proofs.«106281_j5669356833568_2_alg».proof.Proof.Spec

/-!
  One block of positions' update of the three running quantities of the streamed softmax pooling (maximum,
  denominator, numerators), read at an index, is the streamed form's step; two blocks in a row followed by the
  quotient give the streamed form's pooled feature.
-/

noncomputable section

namespace Cert.StepSpec

open Idealize.ShloMosaic ValueIdx Cert.KernelIdeal Cert.KernelIdeal.Gen Cert.PayIdx

/-! ## One block -/

section Step

variable (x0 : Vec Ideal S1x19x8192 .f32) (x1 : Vec Ideal S1x512x8192 .f32)
  (ms ls : Vec Ideal S19x1 .f32) (av : Vec Ideal S19x512 .f32)
  (P : Fin 8 → Fin 19 → Fin 16384 → EReal) (Fe : Fin 8 → Fin 512 → Fin 16384 → EReal)
  (b : Fin 8) (t : Fin 2)
  (hx0 : ∀ (k : Fin 19) (j : Fin 8192), x0 (ix3 0 k j) = P b k (Cert.Pool.tileIdx t j))
  (hx1 : ∀ (cc : Fin 512) (j : Fin 8192), x1 (ix3 0 cc j) = Fe b cc (Cert.Pool.tileIdx t j))
  (k : Fin 19) (cc : Fin 512) (mp lp ap : EReal)
  (hm : ms (ix2 k 0) = mp) (hl : ls (ix2 k 0) = lp) (ha : av (ix2 k cc) = ap)

include hx0 hm in
/-- The new running maximum: the maximum of the one before and the block's scores' maximum. -/
theorem pay8_eq : k0_pay8 x0 ms (ix2 k 0) = Cert.Pool.mNew P mp b k t := by
  rw [pay8_apply, hm]
  have hf : (fun j : Fin 8192 => x0 (ix3 0 k j) * Cert.Pool.one) = Cert.Pool.pt P b k t :=
    funext fun j => by rw [hx0 k j]; rfl
  rw [hf]
  rfl

include hx0 hm in
/-- The stored maximum is the new running maximum. -/
theorem step_m : k0_pay2 (F := Ideal) (k0_pay8 x0 ms) (ix2 k 0) = Cert.Pool.mNew P mp b k t := by
  rw [pay2_apply]
  exact pay8_eq x0 ms P b t hx0 k mp hm

include hx0 hm in
/-- The rescaling factor of what was accumulated against the maximum before. -/
theorem alpha_eq : k0_pay9 x0 ms ms (ix2 k 0) = Cert.Pool.alpha P mp b k t := by
  rw [pay9_apply, pay8_eq x0 ms P b t hx0 k mp hm, hm]
  rfl

include hx0 hm in
/-- The block's unnormalised weights against the new maximum. -/
theorem step_w (j : Fin 8192) : k0_pay11 x0 ms (ix2 k j) = Cert.Pool.ew P mp b k t j := by
  rw [pay11_apply, pay10_apply, pay8_eq x0 ms P b t hx0 k mp hm, hx0 k j]
  rfl

include hx0 hm hl in
/-- The new running denominator. -/
theorem step_l : k0_pay12 x0 ms ms ls (ix2 k 0) = Cert.Pool.lNew P mp lp b k t := by
  rw [pay12_apply, alpha_eq x0 ms P b t hx0 k mp hm, hl]
  unfold Cert.Pool.lNew
  refine congrArg (_ + ·) (Finset.sum_congr rfl fun j _ => ?_)
  exact (pay11_apply x0 ms k j).symm.trans (step_w x0 ms P b t hx0 k mp hm j)

include hx0 hx1 hm ha in
/-- The new running numerator of channel `cc`. -/
theorem step_a :
    k0_pay13 x0 ms ms av (ix2 k cc) + ∑ j : Fin 8192, k0_pay11 x0 ms (ix2 k j) * x1 (ix3 0 cc j)
      = Cert.Pool.accNew P Fe mp ap b k cc t := by
  rw [pay13_apply, alpha_eq x0 ms P b t hx0 k mp hm, ha]
  unfold Cert.Pool.accNew
  refine congrArg (_ + ·) (Finset.sum_congr rfl fun j _ => ?_)
  rw [step_w x0 ms P b t hx0 k mp hm j, hx1 cc j]

end Step

/-! ## The initial values and the quotient -/

theorem init_m (k : Fin 19) : k0_pay4 (F := Ideal) (ix2 k 0) = Cert.Pool.negInf := pay4_apply k 0

theorem init_l (k : Fin 19) : k0_pay5 (F := Ideal) (ix2 k 0) = Cert.Pool.zero := pay5_apply k 0

theorem init_a (k : Fin 19) (cc : Fin 512) : k0_pay6 (F := Ideal) (ix2 k cc) = Cert.Pool.zero := pay6_apply k cc

theorem step_o (a : Vec Ideal S19x512 .f32) (l : Vec Ideal S19x1 .f32) (z : Fin 1) (k : Fin 19) (cc : Fin 512) :
    k0_pay3 a l (ix3 z k cc) = Ideal.div (a (ix2 k cc)) (l (ix2 k 0)) := pay3_apply a l z k cc

/-! ## Two blocks in a row, then the quotient -/

/-- Starting from the initial values, the first half's block followed by the second half's block and the final
    quotient is the streamed form's pooled feature. The numerators after each block are any arrays with the stated
    entries. -/
theorem two_points (x0 x0' : Vec Ideal S1x19x8192 .f32) (x1 x1' : Vec Ideal S1x512x8192 .f32)
    (P : Fin 8 → Fin 19 → Fin 16384 → EReal) (Fe : Fin 8 → Fin 512 → Fin 16384 → EReal) (b : Fin 8)
    (hx0 : ∀ (k : Fin 19) (j : Fin 8192), x0 (ix3 0 k j) = P b k (Cert.Pool.tileIdx 0 j))
    (hx1 : ∀ (cc : Fin 512) (j : Fin 8192), x1 (ix3 0 cc j) = Fe b cc (Cert.Pool.tileIdx 0 j))
    (hx0' : ∀ (k : Fin 19) (j : Fin 8192), x0' (ix3 0 k j) = P b k (Cert.Pool.tileIdx 1 j))
    (hx1' : ∀ (cc : Fin 512) (j : Fin 8192), x1' (ix3 0 cc j) = Fe b cc (Cert.Pool.tileIdx 1 j))
    (A0 A1 : Vec Ideal S19x512 .f32)
    (hA0 : ∀ (k : Fin 19) (cc : Fin 512), A0 (ix2 k cc)
      = k0_pay13 x0 (k0_pay4 (F := Ideal)) (k0_pay4 (F := Ideal)) (k0_pay6 (F := Ideal)) (ix2 k cc)
        + ∑ j : Fin 8192, k0_pay11 x0 (k0_pay4 (F := Ideal)) (ix2 k j) * x1 (ix3 0 cc j))
    (hA1 : ∀ (k : Fin 19) (cc : Fin 512), A1 (ix2 k cc)
      = k0_pay13 x0' (k0_pay2 (F := Ideal) (k0_pay8 x0 (k0_pay4 (F := Ideal))))
          (k0_pay2 (F := Ideal) (k0_pay8 x0 (k0_pay4 (F := Ideal)))) A0 (ix2 k cc)
        + ∑ j : Fin 8192, k0_pay11 x0' (k0_pay2 (F := Ideal) (k0_pay8 x0 (k0_pay4 (F := Ideal)))) (ix2 k j)
            * x1' (ix3 0 cc j))
    (z : Fin 1) (k : Fin 19) (cc : Fin 512) :
    k0_pay3 A1
        (k0_pay12 x0' (k0_pay2 (F := Ideal) (k0_pay8 x0 (k0_pay4 (F := Ideal))))
          (k0_pay2 (F := Ideal) (k0_pay8 x0 (k0_pay4 (F := Ideal))))
          (k0_pay12 x0 (k0_pay4 (F := Ideal)) (k0_pay4 (F := Ideal)) (k0_pay5 (F := Ideal))))
        (ix3 z k cc)
      = Cert.Pool.kerCtx P Fe b k cc := by
  -- after the first half: the running maximum, denominator and numerator of the streamed form
  have hM0 : k0_pay2 (F := Ideal) (k0_pay8 x0 (k0_pay4 (F := Ideal))) (ix2 k 0) = Cert.Pool.m0 P b k :=
    step_m x0 (k0_pay4 (F := Ideal)) P b 0 hx0 k Cert.Pool.negInf (init_m k)
  have hL0 : k0_pay12 x0 (k0_pay4 (F := Ideal)) (k0_pay4 (F := Ideal)) (k0_pay5 (F := Ideal)) (ix2 k 0)
      = Cert.Pool.l0 P b k :=
    step_l x0 (k0_pay4 (F := Ideal)) (k0_pay5 (F := Ideal)) P b 0 hx0 k Cert.Pool.negInf Cert.Pool.zero
      (init_m k) (init_l k)
  have hA0' : A0 (ix2 k cc) = Cert.Pool.acc0 P Fe b k cc :=
    (hA0 k cc).trans
      (step_a x0 x1 (k0_pay4 (F := Ideal)) (k0_pay6 (F := Ideal)) P Fe b 0 hx0 hx1 k cc Cert.Pool.negInf
        Cert.Pool.zero (init_m k) (init_a k cc))
  -- after the second half
  have hL1 : k0_pay12 x0' (k0_pay2 (F := Ideal) (k0_pay8 x0 (k0_pay4 (F := Ideal))))
      (k0_pay2 (F := Ideal) (k0_pay8 x0 (k0_pay4 (F := Ideal))))
      (k0_pay12 x0 (k0_pay4 (F := Ideal)) (k0_pay4 (F := Ideal)) (k0_pay5 (F := Ideal))) (ix2 k 0)
      = Cert.Pool.l1 P b k :=
    step_l x0' _ _ P b 1 hx0' k (Cert.Pool.m0 P b k) (Cert.Pool.l0 P b k) hM0 hL0
  have hA1' : A1 (ix2 k cc) = Cert.Pool.acc1 P Fe b k cc :=
    (hA1 k cc).trans
      (step_a x0' x1' _ A0 P Fe b 1 hx0' hx1' k cc (Cert.Pool.m0 P b k) (Cert.Pool.acc0 P Fe b k cc) hM0 hA0')
  rw [step_o, hA1', hL1]
  rfl

end Cert.StepSpec

end
-- ==== Proof.OutArr.lean ====
/-
  The result array from what the second halves leave.
  The output window's block at grid point `t` is batch entry `t / 2` of the array `[8, 19, 512]`, whole on the other
  two axes, and it is written back at the odd points only. So the array after the run holds, at batch entry `b`,
  what point `2 * b + 1` left in the block. The two host operations after the region then swap the class and channel
  axes and append a unit axis: the result at `(b, channel, class, 0)` is the array at `(b, class, channel)`.
-/
import proofs.«106281_j5669356833568_2_alg».proof.Proof.KIFrame
import Idealize.ShloMosaic.Lib.ValueIdx
import Idealize.ShloMosaic.Lib.Pipeline.Value
import Idealize.ShloMosaic.Lib.StableHlo.Run

set_option maxRecDepth 16384

noncomputable section

namespace Cert.OutArr

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output's index map over the grid: batch entry `t / 2`, whole on the other two axes. -/
theorem idx_out : ∀ t : Fin cfg0.N, win0_2.index t (0 : Fin 3) = t.val / 2 ∧ win0_2.index t (1 : Fin 3) = 0
    ∧ win0_2.index t (2 : Fin 3) = 0 :=
  (by decide +kernel : ∀ t : Fin grid0.N, _)

/-- An index of the array is in point `t`'s block iff each coordinate is in the block's range on its axis. -/
theorem mem_blk_out (t : Fin cfg0.N) (i : S8x19x512.Idx) :
    i ∈ ((cfg0.win 2).blk t).view.set ↔ ∀ a : Fin 3, win0_2.index t a * S1x19x512.size a ≤ (i a).val ∧ (i a).val < win0_2.index t a * S1x19x512.size a + S1x19x512.size a := by
  show i ∈ ((View.whole main_v2).slice (win0_2.rect t)).set ↔ _
  rw [View.set_slice_whole, Rect.mem_set_unit]
  exact Iff.rfl

/-- The output array after the run, block by block: if at every odd point `2 * b + 1` the output block holds `G b`
    (at class `k` and channel `cc`), the array holds `G b k cc` at `(b, k, cc)`. -/
theorem final_of_after (c : Dev nD) (G : Fin 8 → Fin 19 → Fin 512 → Elt F .f32)
    (hG : ∀ (b : Fin 8) (t : Fin cfg0.N), t.val = 2 * b.val + 1 → ∀ (k : Fin 19) (cc : Fin 512)
      (y : ((cfg0.win 2).xblock (cfg0.grid.coords t)).Idx), (y 1).val = k.val → (y 2).val = cc.val →
      (dats m 0 c).after 2 t y = G b k cc)
    (b : Fin 8) (k : Fin 19) (cc : Fin 512) :
    (dats m 0 c).arrAt 2 cfg0.N (ix3 b k cc) = G b k cc := by
  have hflushed : ∀ t, (cfg0.win 2).flush t = true →
      (dats m 0 c).flushed 2 t = ((cfg0.win 2).blk t).view.read (Elt F) (fun i : S8x19x512.Idx => G (i 0) (i 1) (i 2)) := by
    intro t hf
    have hodd : t.val % 2 = 1 := (flush0_2 t).mp hf
    obtain ⟨e0, e1, e2⟩ := idx_out t
    funext y
    have ht : t.val < 16 := t.isLt
    have hy0 : (y 0).val < 1 := (y 0).isLt
    have hy1 : (y 1).val < 19 := (y 1).isLt
    have hy2 : (y 2).val < 512 := (y 2).isLt
    have hb : t.val / 2 < 8 := by omega
    refine (hG ⟨t.val / 2, hb⟩ t (by show t.val = 2 * (t.val / 2) + 1; omega) ⟨(y 1).val, hy1⟩ ⟨(y 2).val, hy2⟩ y rfl rfl).trans ?_
    show G ⟨t.val / 2, hb⟩ ⟨(y 1).val, hy1⟩ ⟨(y 2).val, hy2⟩
      = G (((cfg0.win 2).blk t).view.emb y 0) (((cfg0.win 2).blk t).view.emb y 1) (((cfg0.win 2).blk t).view.emb y 2)
    have h0 : (⟨t.val / 2, hb⟩ : Fin 8) = ((cfg0.win 2).blk t).view.emb y 0 :=
      Fin.ext (by show t.val / 2 = win0_2.index t (0 : Fin 3) * 1 + 1 * (y 0).val; omega)
    have h1 : (⟨(y 1).val, hy1⟩ : Fin 19) = ((cfg0.win 2).blk t).view.emb y 1 :=
      Fin.ext (by show (y 1).val = win0_2.index t (1 : Fin 3) * 19 + 1 * (y 1).val; omega)
    have h2 : (⟨(y 2).val, hy2⟩ : Fin 512) = ((cfg0.win 2).blk t).view.emb y 2 :=
      Fin.ext (by show (y 2).val = win0_2.index t (2 : Fin 3) * 512 + 1 * (y 2).val; omega)
    exact congr (congr (congrArg G h0) h1) h2
  have hb2 : 2 * b.val + 1 < cfg0.N := by have := b.isLt; show 2 * b.val + 1 < 16; omega
  have hf : (cfg0.win 2).flush ⟨2 * b.val + 1, hb2⟩ = true := (flush0_2 ⟨2 * b.val + 1, hb2⟩).mpr (by show (2 * b.val + 1) % 2 = 1; omega)
  have hmem : (ix3 b k cc : S8x19x512.Idx) ∈ ((cfg0.win 2).blk ⟨2 * b.val + 1, hb2⟩).view.set := by
    rw [mem_blk_out]
    obtain ⟨e0, e1, e2⟩ := idx_out ⟨2 * b.val + 1, hb2⟩
    have hk := k.isLt
    have hcc := cc.isLt
    intro a
    match a with
    | ⟨0, _⟩ => show win0_2.index ⟨2 * b.val + 1, hb2⟩ (0 : Fin 3) * 1 ≤ b.val ∧ b.val < win0_2.index ⟨2 * b.val + 1, hb2⟩ (0 : Fin 3) * 1 + 1; rw [e0]; show (2 * b.val + 1) / 2 * 1 ≤ b.val ∧ b.val < (2 * b.val + 1) / 2 * 1 + 1; omega
    | ⟨1, _⟩ => show win0_2.index ⟨2 * b.val + 1, hb2⟩ (1 : Fin 3) * 19 ≤ k.val ∧ k.val < win0_2.index ⟨2 * b.val + 1, hb2⟩ (1 : Fin 3) * 19 + 19; omega
    | ⟨2, _⟩ => show win0_2.index ⟨2 * b.val + 1, hb2⟩ (2 : Fin 3) * 512 ≤ cc.val ∧ cc.val < win0_2.index ⟨2 * b.val + 1, hb2⟩ (2 : Fin 3) * 512 + 512; omega
  exact (dats m 0 c).arrAt_apply_of_mem 2 (fun i : S8x19x512.Idx => G (i 0) (i 1) (i 2)) hflushed cfg0.N ⟨2 * b.val + 1, hb2⟩ (ix3 b k cc) hb2 hf hmem

/-- The two host operations after the region, read at an index: the result at `(b, channel, class, 0)` is the
    output array after the run at `(b, class, channel)`. -/
theorem tail_apply (c : Dev nD) (b : Fin 8) (cc : Fin 512) (k : Fin 19) (z : Fin 1) :
    Pipeline.afterTail₀ cfgs (dats m) 0 (V0 m) [hostOps1] c main_v4 (ix4 b cc k z)
      = (dats m 0 c).arrAt 2 cfg0.N (ix3 b k cc) := by
  unfold Pipeline.afterTail₀
  show StableHlo.after hostOps1 _ (Proc.devRef .tc main_v4) (ix4 b cc k z) = _
  after_results
  have hw : Pipeline.withArrays (cfgs 0).spec c (V0 m c) (fun w => (dats m 0 c).arrAt w (cfgs 0).N) (Proc.devRef .tc main_v2)
      = (dats m 0 c).arrAt 2 cfg0.N :=
    Pipeline.withArrays_arr spec0 launch0.win.arr_inj c _ _ 2
  rw [hw]
  refine (broadcastInDim_apply _ bcast_S8x512x19_S8x512x19x1_0_1_2 _ (ix4 b cc k z) (ix3 b cc k) (fun a => match a with
    | ⟨0, _⟩ => by show b.val = if (8 : Nat) = 1 then 0 else b.val; rw [if_neg (by decide)]
    | ⟨1, _⟩ => by show cc.val = if (512 : Nat) = 1 then 0 else cc.val; rw [if_neg (by decide)]
    | ⟨2, _⟩ => by show k.val = if (19 : Nat) = 1 then 0 else k.val; rw [if_neg (by decide)])).trans ?_
  exact transpose_apply [0, 2, 1] _ transposes_S8x19x512_S8x512x19_0_2_1 (ix3 b cc k) (ix3 b k cc) (fun a => match a with
    | ⟨0, _⟩ => rfl
    | ⟨1, _⟩ => rfl
    | ⟨2, _⟩ => rfl)

/-- The program's result from what the second halves leave in the output block. -/
theorem result_of_after (c : Dev nD) (G : Fin 8 → Fin 19 → Fin 512 → Elt F .f32)
    (hG : ∀ (b : Fin 8) (t : Fin cfg0.N), t.val = 2 * b.val + 1 → ∀ (k : Fin 19) (cc : Fin 512)
      (y : ((cfg0.win 2).xblock (cfg0.grid.coords t)).Idx), (y 1).val = k.val → (y 2).val = cc.val →
      (dats m 0 c).after 2 t y = G b k cc)
    (b : Fin 8) (cc : Fin 512) (k : Fin 19) (z : Fin 1) :
    Pipeline.afterTail₀ cfgs (dats m) 0 (V0 m) [hostOps1] c main_v4 (ix4 b cc k z) = G b k cc :=
  (tail_apply m c b cc k z).trans (final_of_after m c G hG b k cc)

end Cert.OutArr

end
-- ==== Proof.Blocks.lean ====
/-
  The kernel's two input arrays as the region finds them, and the blocks the grid stages from them.
  The host reshapes each argument array `[8, C, 128, 128]` into `[8, C, 16384]` (the two spatial axes merged, row
  major); grid point `t = 2 * b + h` then stages, of each reshaped array, batch entry `b`, every channel, and half
  `h` of the 16384 positions: position `j` of the block is position `h * 8192 + j` of the array.
-/
import proofs.«106281_j5669356833568_2_alg».proof.Proof.Gen.KernelIdeal.Frame
import proofs.«106281_j5669356833568_2_alg».proof.Proof.Spec
import Idealize.ShloMosaic.Lib.ValueIdx
import Idealize.ShloMosaic.Lib.Pipeline.Value
import Idealize.ShloMosaic.Lib.StableHlo.Run

set_option maxRecDepth 16384

noncomputable section

namespace Cert.Blocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen ValueIdx

variable {F : FTy → Type} [FloatOps F]
variable (m : (ℓ : Loc nD τ sig) → Buf (Elt F) ℓ) (ρ : Dev nD → PrngReg)

/-- The reshaped scores as the region finds them: the host's reshape of the argument array. -/
theorem V_main_v1 (c : Dev nD) :
    (V m c main_v1 : S8x19x16384.Idx → Elt F .f32)
      = shapeCast S8x19x16384 (m ((c : Thread nD τ).loc main_arg1)) shapeCasts_S8x19x128x128_S8x19x16384 := by
  show StableHlo.after hostOps0 (fun b => m (c, b)) (Proc.devRef .tc main_v1) = _
  after_results
  rfl

/-- The reshaped features as the region finds them: the host's reshape of the argument array. -/
theorem V_main_v0 (c : Dev nD) :
    (V m c main_v0 : S8x512x16384.Idx → Elt F .f32)
      = shapeCast S8x512x16384 (m ((c : Thread nD τ).loc main_arg0)) shapeCasts_S8x512x128x128_S8x512x16384 := by
  show StableHlo.after hostOps0 (fun b => m (c, b)) (Proc.devRef .tc main_v0) = _
  after_results
  rfl

/-- The scores' index map over the grid: batch entry `t / 2`, every class, half `t % 2`. -/
theorem idx_scores : ∀ t : Fin cfg0.N, win0_0.index t (0 : Fin 3) = t.val / 2 ∧ win0_0.index t (1 : Fin 3) = 0
    ∧ win0_0.index t (2 : Fin 3) = t.val % 2 :=
  (by decide +kernel : ∀ t : Fin grid0.N, _)

/-- The features' index map over the grid: batch entry `t / 2`, every channel, half `t % 2`. -/
theorem idx_feats : ∀ t : Fin cfg0.N, win0_1.index t (0 : Fin 3) = t.val / 2 ∧ win0_1.index t (1 : Fin 3) = 0
    ∧ win0_1.index t (2 : Fin 3) = t.val % 2 :=
  (by decide +kernel : ∀ t : Fin grid0.N, _)

/-- The scores' block at grid point `t = 2 * b + h`, read at class `k` and position `j`: the reshaped scores at batch
    entry `b`, class `k`, position `h * 8192 + j`. -/
theorem iblk0_apply (c : Dev nD) (t : Fin cfg0.N) (b : Fin 8) (h : Fin 2) (ht : t.val = 2 * b.val + h.val)
    (k : Fin 19) (j : Fin 8192)
    (y : ((cfg0.win 0).xblock (cfg0.grid.coords t)).Idx) (hy1 : (y 1).val = k.val) (hy2 : (y 2).val = j.val) :
    iblk m c 0 t y = V m c main_v1 (ix3 b k (Cert.Pool.tileIdx h j)) := by
  obtain ⟨e0, e1, e2⟩ := idx_scores t
  have hh : h.val < 2 := h.isLt
  unfold iblk
  show V m c main_v1 (((cfg0.win 0).blk t).view.emb y) = V m c main_v1 (ix3 b k (Cert.Pool.tileIdx h j))
  refine congrArg (V m c main_v1) ?_
  funext a; apply Fin.ext
  match a with
  | ⟨0, _⟩ =>
    show win0_0.index t (0 : Fin 3) * 1 + 1 * (y 0).val = b.val
    have hy0 : (y 0).val < 1 := (y 0).isLt
    omega
  | ⟨1, _⟩ =>
    show win0_0.index t (1 : Fin 3) * 19 + 1 * (y 1).val = k.val
    omega
  | ⟨2, _⟩ =>
    show win0_0.index t (2 : Fin 3) * 8192 + 1 * (y 2).val = h.val * 8192 + j.val
    omega

/-- The features' block at grid point `t = 2 * b + h`, read at channel `cch` and position `j`: the reshaped features
    at batch entry `b`, channel `cch`, position `h * 8192 + j`. -/
theorem iblk1_apply (c : Dev nD) (t : Fin cfg0.N) (b : Fin 8) (h : Fin 2) (ht : t.val = 2 * b.val + h.val)
    (cch : Fin 512) (j : Fin 8192)
    (y : ((cfg0.win 1).xblock (cfg0.grid.coords t)).Idx) (hy1 : (y 1).val = cch.val) (hy2 : (y 2).val = j.val) :
    iblk m c 1 t y = V m c main_v0 (ix3 b cch (Cert.Pool.tileIdx h j)) := by
  obtain ⟨e0, e1, e2⟩ := idx_feats t
  have hh : h.val < 2 := h.isLt
  unfold iblk
  show V m c main_v0 (((cfg0.win 1).blk t).view.emb y) = V m c main_v0 (ix3 b cch (Cert.Pool.tileIdx h j))
  refine congrArg (V m c main_v0) ?_
  funext a; apply Fin.ext
  match a with
  | ⟨0, _⟩ =>
    show win0_1.index t (0 : Fin 3) * 1 + 1 * (y 0).val = b.val
    have hy0 : (y 0).val < 1 := (y 0).isLt
    omega
  | ⟨1, _⟩ =>
    show win0_1.index t (1 : Fin 3) * 512 + 1 * (y 1).val = cch.val
    omega
  | ⟨2, _⟩ =>
    show win0_1.index t (2 : Fin 3) * 8192 + 1 * (y 2).val = h.val * 8192 + j.val
    omega

end Cert.Blocks

end
-- ==== Proof.PoolMath.lean ====
import proofs.«106281_j5669356833568_2_alg».proof.Proof.Spec
import Mathlib.Algebra.BigOperators.Fin

/-!
  The streamed softmax pooling equals the direct one, on real scores and real features.

  Both forms are evaluated down to the reals. The direct form is `∑ₛ (exp (pₛ − M') / ∑ᵤ exp (pᵤ − M')) · fₛ` with `M'`
  the maximum of all scores. In the streamed form the first half starts from the maximum −∞, so its rescaling factor is
  `exp (−∞) = 0` and only its own terms, taken against the first half's maximum `A`, remain; the second half rescales them
  by `exp (A − M)`, and `exp (A − M) · exp (p − A) = exp (p − M)`, so numerator and denominator become the sums over all
  16384 positions of `exp (pₛ − M) · fₛ` and `exp (pₛ − M)`. The quotient of these two sums is the same for every real
  shift (`exp (p − M') = exp (p − M) · exp (M − M')` and the common factor cancels), so nothing about the maxima is used
  beyond their being real numbers.
-/

noncomputable section

namespace Cert.Pool

open Idealize.ShloMosaic

/-! ## The three constants -/

theorem negInf_eq : negInf = ⊥ := by
  simp [negInf, Ideal.ofBits, Ideal.ieee]

theorem one_eq : one = 1 := by
  simp [one, Ideal.ofBits, Ideal.ieee]
  rw [← EReal.coe_mul, ← EReal.coe_one]
  congr 1
  norm_num

theorem zero_eq : zero = 0 := by
  simp [zero]

/-! ## Coercions through finite sums and maxima -/

/-- The coercion of the reals into the extended reals commutes with finite sums. -/
theorem coe_sum {ι : Type*} (s : Finset ι) (g : ι → ℝ) :
    (∑ i ∈ s, ((g i : ℝ) : EReal)) = ((∑ i ∈ s, g i : ℝ) : EReal) := by
  classical
  induction s using Finset.induction_on with
  | empty => simp
  | insert a s ha ih => rw [Finset.sum_insert ha, Finset.sum_insert ha, ih, EReal.coe_add]

/-- The maximum, taken from −∞, of finitely many (at least one) real numbers is a real number. -/
theorem fold_max_real {ι : Type*} (s : Finset ι) (hs : s.Nonempty) (g : ι → ℝ) :
    ∃ r : ℝ, s.fold max (⊥ : EReal) (fun i => ((g i : ℝ) : EReal)) = (r : EReal) := by
  obtain ⟨i, -, hi⟩ := Finset.exists_mem_eq_sup s hs (fun i => ((g i : ℝ) : EReal))
  exact ⟨g i, hi⟩

/-! ## The 16384 positions as two halves of 8192 -/

theorem sum_split {M : Type*} [AddCommMonoid M] (g : Fin 16384 → M) :
    ∑ s, g s = ∑ j, g (tileIdx 0 j) + ∑ j, g (tileIdx 1 j) := by
  have h := Fin.sum_univ_add (a := 8192) (b := 8192) (fun i => g i)
  refine h.trans ?_
  refine congrArg₂ (· + ·) (Finset.sum_congr rfl fun j _ => congrArg g (Fin.ext ?_))
    (Finset.sum_congr rfl fun j _ => congrArg g (Fin.ext ?_))
  · simp [tileIdx]
  · simp only [tileIdx, Fin.coe_natAdd, Fin.val_one, one_mul]

/-! ## The identity on the reals -/

theorem real_core (q g : Fin 16384 → ℝ) (A M M' : ℝ) :
    (Real.exp (A - M) * (∑ j, Real.exp (q (tileIdx 0 j) - A) * g (tileIdx 0 j))
        + ∑ j, Real.exp (q (tileIdx 1 j) - M) * g (tileIdx 1 j))
      * (1 / (Real.exp (A - M) * (∑ j, Real.exp (q (tileIdx 0 j) - A))
          + ∑ j, Real.exp (q (tileIdx 1 j) - M)))
    = ∑ s, Real.exp (q s - M') * (1 / ∑ s, Real.exp (q s - M')) * g s := by
  have e0 : ∀ j, Real.exp (A - M) * Real.exp (q (tileIdx 0 j) - A) = Real.exp (q (tileIdx 0 j) - M) := by
    intro j; rw [← Real.exp_add]; congr 1; ring
  have hnum : Real.exp (A - M) * (∑ j, Real.exp (q (tileIdx 0 j) - A) * g (tileIdx 0 j))
        + ∑ j, Real.exp (q (tileIdx 1 j) - M) * g (tileIdx 1 j)
      = ∑ s, Real.exp (q s - M) * g s := by
    rw [sum_split (fun s => Real.exp (q s - M) * g s), Finset.mul_sum]
    congr 1
    exact Finset.sum_congr rfl (fun j _ => by rw [← mul_assoc, e0])
  have hden : Real.exp (A - M) * (∑ j, Real.exp (q (tileIdx 0 j) - A))
        + ∑ j, Real.exp (q (tileIdx 1 j) - M)
      = ∑ s, Real.exp (q s - M) := by
    rw [sum_split (fun s => Real.exp (q s - M)), Finset.mul_sum]
    congr 1
    exact Finset.sum_congr rfl (fun j _ => e0 j)
  rw [hnum, hden]
  have hs : ∀ s, Real.exp (q s - M') = Real.exp (q s - M) * Real.exp (M - M') := by
    intro s; rw [← Real.exp_add]; congr 1; ring
  have hL' : (∑ s, Real.exp (q s - M')) = (∑ s, Real.exp (q s - M)) * Real.exp (M - M') := by
    rw [Finset.sum_mul]; exact Finset.sum_congr rfl (fun s _ => hs s)
  have hLpos : 0 < ∑ s : Fin 16384, Real.exp (q s - M) :=
    Finset.sum_pos (fun s _ => Real.exp_pos _) ⟨⟨0, by norm_num⟩, Finset.mem_univ _⟩
  have hL0 : (∑ s : Fin 16384, Real.exp (q s - M)) ≠ 0 := hLpos.ne'
  have hc0 : Real.exp (M - M') ≠ 0 := (Real.exp_pos _).ne'
  rw [hL', Finset.sum_mul]
  refine Finset.sum_congr rfl (fun s _ => ?_)
  rw [hs s]
  field_simp

/-! ## Both forms evaluated on real inputs -/

section eval

variable {P : Fin 8 → Fin 19 → Fin 16384 → EReal} {Fe : Fin 8 → Fin 512 → Fin 16384 → EReal}
  {b : Fin 8} {k : Fin 19} {c : Fin 512} {q g : Fin 16384 → ℝ}

theorem pt_eq (hq : ∀ s, P b k s = (q s : EReal)) (t : Fin 2) (j : Fin 8192) :
    pt P b k t j = (q (tileIdx t j) : EReal) := by
  rw [pt, hq, one_eq, mul_one]

theorem rp_eq (hq : ∀ s, P b k s = (q s : EReal)) (s : Fin 16384) :
    rp P b k s = (q s : EReal) := by
  rw [rp, hq, one_eq, one_mul]

/-- The maximum of a half's scores is a real number. -/
theorem bmax_real (hq : ∀ s, P b k s = (q s : EReal)) (t : Fin 2) :
    ∃ A : ℝ, bmax P b k t = (A : EReal) := by
  have h : pt P b k t = fun j => ((q (tileIdx t j) : ℝ) : EReal) := funext (pt_eq hq t)
  rw [bmax, negInf_eq, h]
  exact fold_max_real _ ⟨⟨0, by norm_num⟩, Finset.mem_univ _⟩ _

/-- The streamed form on real inputs: with `A` the first half's maximum and `M` the overall running maximum,
    the rescaled numerator over the rescaled denominator, all in the reals. -/
theorem kerCtx_real (hq : ∀ s, P b k s = (q s : EReal)) (hg : ∀ s, Fe b c s = (g s : EReal)) :
    ∃ A M : ℝ, kerCtx P Fe b k c =
      (((Real.exp (A - M) * (∑ j, Real.exp (q (tileIdx 0 j) - A) * g (tileIdx 0 j))
          + ∑ j, Real.exp (q (tileIdx 1 j) - M) * g (tileIdx 1 j))
        * (1 / (Real.exp (A - M) * (∑ j, Real.exp (q (tileIdx 0 j) - A))
            + ∑ j, Real.exp (q (tileIdx 1 j) - M))) : ℝ) : EReal) := by
  obtain ⟨A, hA⟩ := bmax_real hq 0
  obtain ⟨B, hB⟩ := bmax_real hq 1
  have hm0 : m0 P b k = (A : EReal) := by
    rw [m0, mNew, hA, negInf_eq, max_eq_right bot_le]
  obtain ⟨M, hM⟩ : ∃ M : ℝ, m1 P b k = (M : EReal) := by
    rw [m1, mNew, hm0, hB]
    rcases le_total (A : EReal) (B : EReal) with h | h
    · exact ⟨B, max_eq_right h⟩
    · exact ⟨A, max_eq_left h⟩
  refine ⟨A, M, ?_⟩
  -- the first half: nothing accumulated yet, so the rescaling factor is exp (−∞) = 0
  have ha0 : alpha P negInf b k 0 = 0 := by
    rw [alpha, negInf_eq, EReal.bot_sub, Ideal.exp_bot]
  have he0 : ∀ j, ew P negInf b k 0 j = ((Real.exp (q (tileIdx 0 j) - A) : ℝ) : EReal) := by
    intro j
    show Ideal.exp (pt P b k 0 j - m0 P b k) = _
    rw [pt_eq hq, hm0, ← EReal.coe_sub, Ideal.exp_coe]
  have hl0 : l0 P b k = ((∑ j, Real.exp (q (tileIdx 0 j) - A) : ℝ) : EReal) := by
    rw [l0, lNew, ha0, zero_mul, zero_add]
    exact (Finset.sum_congr rfl (fun j _ => he0 j)).trans (coe_sum _ _)
  have hacc0 : acc0 P Fe b k c
      = ((∑ j, Real.exp (q (tileIdx 0 j) - A) * g (tileIdx 0 j) : ℝ) : EReal) := by
    rw [acc0, accNew, ha0, zero_mul, zero_add]
    exact (Finset.sum_congr rfl (fun j _ => by rw [he0 j, hg, ← EReal.coe_mul])).trans (coe_sum _ _)
  -- the second half
  have ha1 : alpha P (m0 P b k) b k 1 = ((Real.exp (A - M) : ℝ) : EReal) := by
    show Ideal.exp (m0 P b k - m1 P b k) = _
    rw [hm0, hM, ← EReal.coe_sub, Ideal.exp_coe]
  have he1 : ∀ j, ew P (m0 P b k) b k 1 j = ((Real.exp (q (tileIdx 1 j) - M) : ℝ) : EReal) := by
    intro j
    show Ideal.exp (pt P b k 1 j - m1 P b k) = _
    rw [pt_eq hq, hM, ← EReal.coe_sub, Ideal.exp_coe]
  have hs1 : (∑ j, ew P (m0 P b k) b k 1 j)
      = ((∑ j, Real.exp (q (tileIdx 1 j) - M) : ℝ) : EReal) :=
    (Finset.sum_congr rfl (fun j _ => he1 j)).trans (coe_sum _ _)
  have hn1 : (∑ j, ew P (m0 P b k) b k 1 j * Fe b c (tileIdx 1 j))
      = ((∑ j, Real.exp (q (tileIdx 1 j) - M) * g (tileIdx 1 j) : ℝ) : EReal) :=
    (Finset.sum_congr rfl (fun j _ => by rw [he1 j, hg, ← EReal.coe_mul])).trans (coe_sum _ _)
  have hl1 : l1 P b k = ((Real.exp (A - M) * (∑ j, Real.exp (q (tileIdx 0 j) - A))
      + ∑ j, Real.exp (q (tileIdx 1 j) - M) : ℝ) : EReal) := by
    rw [l1, lNew, ha1, hl0, hs1, ← EReal.coe_mul, ← EReal.coe_add]
  have hacc1 : acc1 P Fe b k c
      = ((Real.exp (A - M) * (∑ j, Real.exp (q (tileIdx 0 j) - A) * g (tileIdx 0 j))
          + ∑ j, Real.exp (q (tileIdx 1 j) - M) * g (tileIdx 1 j) : ℝ) : EReal) := by
    rw [acc1, accNew, ha1, hacc0, hn1, ← EReal.coe_mul, ← EReal.coe_add]
  -- the denominator is a positive real, so the final division is a real division
  have hpos1 : 0 < ∑ j : Fin 8192, Real.exp (q (tileIdx 1 j) - M) :=
    Finset.sum_pos (fun j _ => Real.exp_pos _) ⟨⟨0, by norm_num⟩, Finset.mem_univ _⟩
  have hnn0 : 0 ≤ Real.exp (A - M) * ∑ j : Fin 8192, Real.exp (q (tileIdx 0 j) - A) :=
    mul_nonneg (Real.exp_pos _).le (Finset.sum_nonneg (fun j _ => (Real.exp_pos _).le))
  have hne : Real.exp (A - M) * (∑ j, Real.exp (q (tileIdx 0 j) - A))
      + ∑ j, Real.exp (q (tileIdx 1 j) - M) ≠ 0 := (add_pos_of_nonneg_of_pos hnn0 hpos1).ne'
  rw [kerCtx, hacc1, hl1, Ideal.div_coe hne, ← EReal.coe_mul]

/-- The direct form on real inputs: with `M'` the maximum of all scores, the sum of the normalised weights times
    the features, all in the reals. -/
theorem refCtx_real (hq : ∀ s, P b k s = (q s : EReal)) (hg : ∀ s, Fe b c s = (g s : EReal)) :
    ∃ M' : ℝ, refCtx P Fe b k c =
      ((∑ s, Real.exp (q s - M') * (1 / ∑ s, Real.exp (q s - M')) * g s : ℝ) : EReal) := by
  have h : rp P b k = fun s => ((q s : ℝ) : EReal) := funext (rp_eq hq)
  obtain ⟨M', hM'⟩ : ∃ M' : ℝ, rMax P b k = (M' : EReal) := by
    obtain ⟨r, hr⟩ := fold_max_real (Finset.univ : Finset (Fin 16384))
      ⟨⟨0, by norm_num⟩, Finset.mem_univ _⟩ q
    exact ⟨r, by rw [rMax, negInf_eq, h, hr, max_eq_right bot_le]⟩
  refine ⟨M', ?_⟩
  have hE : ∀ s, rE P b k s = ((Real.exp (q s - M') : ℝ) : EReal) := by
    intro s
    rw [rE, rp_eq hq, hM', ← EReal.coe_sub, Ideal.exp_coe]
  have hL : rL P b k = ((∑ s, Real.exp (q s - M') : ℝ) : EReal) := by
    rw [rL, zero_eq, zero_add]
    exact (Finset.sum_congr rfl (fun s _ => hE s)).trans (coe_sum _ _)
  have hLne : (∑ s : Fin 16384, Real.exp (q s - M')) ≠ 0 :=
    (Finset.sum_pos (fun s _ => Real.exp_pos _) ⟨⟨0, by norm_num⟩, Finset.mem_univ _⟩).ne'
  rw [refCtx]
  refine (Finset.sum_congr rfl (fun s _ => ?_)).trans (coe_sum _ _)
  rw [hE, hL, Ideal.div_coe hLne, hg, ← EReal.coe_mul, ← EReal.coe_mul]

end eval

/-! ## The two forms agree -/

/-- On real scores and real features the streamed form and the direct form give the same pooled feature: both are
    `(∑ exp (p − m) · f) / ∑ exp (p − m)` for a real shift `m`, and that quotient does not depend on the shift. -/
theorem kerCtx_eq_refCtx (P : Fin 8 → Fin 19 → Fin 16384 → EReal) (Fe : Fin 8 → Fin 512 → Fin 16384 → EReal)
    (hP : ∀ b k s, ∃ r : ℝ, P b k s = (r : EReal)) (hF : ∀ b c s, ∃ r : ℝ, Fe b c s = (r : EReal))
    (b : Fin 8) (k : Fin 19) (c : Fin 512) : kerCtx P Fe b k c = refCtx P Fe b k c := by
  choose p hp using hP
  choose f hf using hF
  obtain ⟨A, M, hk⟩ := kerCtx_real (P := P) (Fe := Fe) (b := b) (k := k) (c := c) (hp b k) (hf b c)
  obtain ⟨M', hr⟩ := refCtx_real (P := P) (Fe := Fe) (b := b) (k := k) (c := c) (hp b k) (hf b c)
  rw [hk, hr, real_core]

end Cert.Pool

end
-- ==== Proof.KIValue.lean ====
/-
  The kernel's result on the extended reals.

  An odd grid point 2 b + 1 is the second half of batch entry b; what it stores into the output block is the quotient
  of the numerator and the denominator accumulated over the two halves, which is the streamed pooling of the Spec
  over the scores and features as the region finds them. The array after the run is those blocks, the two host
  operations after the region only re-lay it, and the streamed pooling is the direct one when the inputs are real.
-/
import proofs.«106281_j5669356833568_2_alg».proof.Proof.KICases
import proofs.«106281_j5669356833568_2_alg».proof.Proof.KILoop
import proofs.«106281_j5669356833568_2_alg».proof.Proof.KIPoints
import proofs.«106281_j5669356833568_2_alg».proof.Proof.StepSpec
import proofs.«106281_j5669356833568_2_alg».proof.Proof.OutArr
import proofs.«106281_j5669356833568_2_alg».proof.Proof.Blocks
import proofs.«106281_j5669356833568_2_alg».proof.Proof.PoolMath

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ)

/-- The scores as the region finds them: entry (b, k, s) of the reshaped second argument. -/
def Pk (c : Dev nD) : Fin 8 → Fin 19 → Fin 16384 → EReal := fun b k s => (V m c main_v1 : S8x19x16384.Idx → EReal) (ix3 b k s)
/-- The features as the region finds them: entry (b, c, s) of the reshaped first argument. -/
def Fk (c : Dev nD) : Fin 8 → Fin 512 → Fin 16384 → EReal := fun b cc s => (V m c main_v0 : S8x512x16384.Idx → EReal) (ix3 b cc s)

/-- What the second half of batch entry `b` leaves in the output block, entry by entry: the streamed pooling. -/
theorem after_odd (c : Dev nD) (b : Fin 8) (t : Fin cfg0.N) (ht : t.val = 2 * b.val + 1) (k : Fin 19) (cc : Fin 512)
    (y : ((cfg0.win 2).xblock (cfg0.grid.coords t)).Idx) (hy1 : (y 1).val = k.val) (hy2 : (y 2).val = cc.val) :
    (dats m 0 c).after 2 t y = Cert.Pool.kerCtx (Pk m c) (Fk m c) b k cc := by
  have ey : y = ix3 (0 : Fin 1) k cc := funext fun a => Fin.ext (by
    match a with
    | ⟨0, _⟩ => have h0 : (y 0).val < 1 := (y 0).isLt; show (y 0).val = 0; omega
    | ⟨1, _⟩ => exact hy1
    | ⟨2, _⟩ => exact hy2)
  have ht' : (firstHalf b).val = 2 * b.val + (0 : Fin 2).val := rfl
  have ht1 : t.val = 2 * b.val + (1 : Fin 2).val := ht
  rw [after0_2, out_odd m c b t ht, oB2, sB1, sA0, sA1, ey]
  exact Cert.StepSpec.two_points (iblk m c 0 (firstHalf b)) (iblk m c 0 t) (iblk m c 1 (firstHalf b)) (iblk m c 1 t) (Pk m c) (Fk m c) b
    (fun k j => Cert.Blocks.iblk0_apply m c (firstHalf b) b 0 ht' k j _ rfl rfl)
    (fun cc j => Cert.Blocks.iblk1_apply m c (firstHalf b) b 0 ht' cc j _ rfl rfl)
    (fun k j => Cert.Blocks.iblk0_apply m c t b 1 ht1 k j _ rfl rfl)
    (fun cc j => Cert.Blocks.iblk1_apply m c t b 1 ht1 cc j _ rfl rfl)
    _ _
    (fun k cc => sA2_apply c _ _ _ _ _ _ _ _ _ _ _ _ _ (firstHalf_A0 b) (firstHalf_A1 b) _ _ k cc)
    (fun k cc => sB2_apply c _ _ _ _ _ _ _ _ _ _ _ _ _ (odd_B0 b t ht) (odd_B1 b t ht) _ _ _ _ _ k cc)
    0 k cc

/-- The program's result, entry by entry, when every score and feature is a real number: the direct pooling. -/
theorem kernel_result (c : Dev nD) (hP : ∀ b k s, ∃ r : ℝ, Pk m c b k s = (r : EReal)) (hF : ∀ b cc s, ∃ r : ℝ, Fk m c b cc s = (r : EReal))
    (b : Fin 8) (cc : Fin 512) (k : Fin 19) (z : Fin 1) :
    Pipeline.afterTail₀ cfgs (dats m) 0 (V0 m) [hostOps1] c main_v4 (ix4 b cc k z) = Cert.Pool.refCtx (Pk m c) (Fk m c) b k cc :=
  (Cert.OutArr.result_of_after m c (Cert.Pool.kerCtx (Pk m c) (Fk m c))
    (fun b t ht k cc y hy1 hy2 => after_odd m c b t ht k cc y hy1 hy2) b cc k z).trans
    (Cert.Pool.kerCtx_eq_refCtx _ _ hP hF b k cc)

end Cert.KernelIdeal.Body

end
-- ==== Proof.RefSide.lean ====
/-
  The reference program read at an index: each stage of the direct softmax pooling, at explicit coordinates, is the
  corresponding term of `Cert.Pool`'s direct form over the reshaped scores and features.
-/
import proofs.«106281_j5669356833568_2_alg».proof.Proof.Gen.ReferenceIdeal.Read
import proofs.«106281_j5669356833568_2_alg».proof.Proof.Spec
import Idealize.ShloMosaic.Lib.ValueIdx
import Idealize.ShloMosaic.PureOps.Ideal.Laws
import Idealize.ShloMosaic.PureOps.Reduce

noncomputable section

namespace Cert.RefSide

open Idealize.ShloMosaic Idealize.ShloMosaic.TcCoe Idealize.SL.Sem Idealize.ShloMosaic.StableHlo
open ValueIdx Cert.ReferenceIdeal Cert.ReferenceIdeal.Gen Cert.ReferenceIdeal.Read

/-- The scores: the second argument reshaped to [8, 19, 16384]. -/
def Pof (x1 : (⟨S8x19x128x128, .f32⟩ : BufTy).Contents (Elt Ideal)) : Fin 8 → Fin 19 → Fin 16384 → EReal :=
  fun b k s => val_main_v0 (F := Ideal) x1 (ix3 b k s)

/-- The features: the first argument reshaped to [8, 512, 16384]. -/
def Fof (x0 : (⟨S8x512x128x128, .f32⟩ : BufTy).Contents (Elt Ideal)) : Fin 8 → Fin 512 → Fin 16384 → EReal :=
  fun b c s => val_main_v1 (F := Ideal) x0 (ix3 b c s)

variable (x0 : (⟨S8x512x128x128, .f32⟩ : BufTy).Contents (Elt Ideal))
  (x1 : (⟨S8x19x128x128, .f32⟩ : BufTy).Contents (Elt Ideal))

/-- The scaled score: one times the score. -/
theorem ref_v3 (b : Fin 8) (k : Fin 19) (s : Fin 16384) :
    val_main_v3 (F := Ideal) x1 (ix3 b k s) = Cert.Pool.rp (Pof x1) b k s := by
  rw [val_main_v3_apply, val_main_v2_apply, val_main_cst_apply]
  simp only [Ideal.mulf_def, Ideal.ofBits_def]
  rfl

/-- The reduced index (b, k) with position `s` put back on the third axis is (b, k, s). -/
theorem lift_ix2 (h : S8x19x16384.Reduces [2] S8x19) (b : Fin 8) (k : Fin 19) (s : Fin (S8x19x16384.size 2)) :
    h.lift (ix2 b k) s = ix3 b k (⟨s.val, s.isLt⟩ : Fin 16384) := by
  funext c; apply Fin.ext
  match c with
  | ⟨0, _⟩ => rfl
  | ⟨1, _⟩ => rfl
  | ⟨2, _⟩ => rfl

/-- The maximum over the positions, from the value of the pattern of minus infinity. -/
theorem ref_v4 (b : Fin 8) (k : Fin 19) :
    val_main_v4 (F := Ideal) x1 (ix2 b k)
      = (Finset.univ : Finset (Fin 16384)).fold max Cert.Pool.negInf (Cert.Pool.rp (Pof x1) b k) := by
  have h : S8x19x16384.Reduces [2] S8x19 := by decide
  unfold val_main_v4
  rw [Host.reduce_eq_fold_single FloatOps.maximumf _ _ reducesTo_S8x19x16384_S8x19_d2 h h_S_]
  have hf : (val_main_v3 (F := Ideal) x1 ∘ h.lift (ix2 b k)) = fun s : Fin 16384 => Cert.Pool.rp (Pof x1) b k s :=
    funext fun s => (congrArg (val_main_v3 (F := Ideal) x1) (lift_ix2 h b k s)).trans (ref_v3 x1 b k s)
  rw [hf]
  rfl

/-- The overall maximum: the maximum of minus infinity's pattern and the reduced maximum. -/
theorem ref_v6 (b : Fin 8) (k : Fin 19) :
    val_main_v6 (F := Ideal) x1 (ix2 b k) = Cert.Pool.rMax (Pof x1) b k := by
  rw [val_main_v6_apply, val_main_v5_apply, val_main_cst_1_apply, ref_v4]
  simp only [Ideal.maximumf_def, Ideal.ofBits_def]
  rfl

/-- The maximum broadcast back along the positions. -/
theorem ref_v8 (b : Fin 8) (k : Fin 19) (s : Fin 16384) :
    val_main_v8 (F := Ideal) x1 (ix3 b k s) = Cert.Pool.rMax (Pof x1) b k := by
  have e : idx_main_v7 (idx_main_v8 (ix3 b k s)) = ix2 b k :=
    funext fun a => Fin.ext (by match a with | ⟨0, _⟩ => rfl | ⟨1, _⟩ => rfl)
  rw [val_main_v8_apply, val_main_v7_apply, e, ref_v6]

/-- The unnormalised weight: the exponential of the scaled score less the maximum. -/
theorem ref_v10 (b : Fin 8) (k : Fin 19) (s : Fin 16384) :
    val_main_v10 (F := Ideal) x1 (ix3 b k s) = Cert.Pool.rE (Pof x1) b k s := by
  rw [val_main_v10_apply, val_main_v9_apply, ref_v3, ref_v8]
  simp only [Ideal.hostUnary_exp_def, Ideal.subf_def]
  rfl

/-- The denominator: the value of the zero pattern plus the sum of the weights. -/
theorem ref_v11 (b : Fin 8) (k : Fin 19) :
    val_main_v11 (F := Ideal) x1 (ix2 b k) = Cert.Pool.rL (Pof x1) b k := by
  rw [val_main_v11_apply, val_main_cst_2_apply]
  simp only [Ideal.ofBits_def]
  unfold Cert.Pool.rL Cert.Pool.zero
  refine congrArg (_ + ·) (Finset.sum_congr rfl fun s _ => ?_)
  have e : idx_main_v11 (ix2 b k) s = ix3 b k s :=
    funext fun a => Fin.ext (by match a with | ⟨0, _⟩ => rfl | ⟨1, _⟩ => rfl | ⟨2, _⟩ => rfl)
  rw [e, ref_v10]

/-- The denominator broadcast back along the positions. -/
theorem ref_v13 (b : Fin 8) (k : Fin 19) (s : Fin 16384) :
    val_main_v13 (F := Ideal) x1 (ix3 b k s) = Cert.Pool.rL (Pof x1) b k := by
  have e : idx_main_v12 (idx_main_v13 (ix3 b k s)) = ix2 b k :=
    funext fun a => Fin.ext (by match a with | ⟨0, _⟩ => rfl | ⟨1, _⟩ => rfl)
  rw [val_main_v13_apply, val_main_v12_apply, e, ref_v11]

/-- The normalised weight. -/
theorem ref_v14 (b : Fin 8) (k : Fin 19) (s : Fin 16384) :
    val_main_v14 (F := Ideal) x1 (ix3 b k s) = Ideal.div (Cert.Pool.rE (Pof x1) b k s) (Cert.Pool.rL (Pof x1) b k) := by
  rw [val_main_v14_apply, ref_v10, ref_v13]
  simp only [Ideal.hostDivf_def]

/-- The contraction over the positions is the direct form's pooled feature. -/
theorem ref_ctx (b : Fin 8) (k : Fin 19) (c : Fin 512) :
    val_main_v15 (F := Ideal) x0 x1 (ix3 b k c) = Cert.Pool.refCtx (Pof x1) (Fof x0) b k c := by
  rw [val_main_v15_apply]
  unfold Cert.Pool.refCtx
  refine Finset.sum_congr rfl fun s _ => ?_
  have el : lidx_main_v15 (ix3 b k c) s = ix3 b k s :=
    funext fun a => Fin.ext (by match a with | ⟨0, _⟩ => rfl | ⟨1, _⟩ => rfl | ⟨2, _⟩ => rfl)
  have er : ridx_main_v15 (ix3 b k c) s = ix3 b c s :=
    funext fun a => Fin.ext (by match a with | ⟨0, _⟩ => rfl | ⟨1, _⟩ => rfl | ⟨2, _⟩ => rfl)
  rw [el, er, ref_v14]
  rfl

/-- The result: the pooled features transposed to [8, 512, 19] with a trailing unit axis. -/
theorem ref_result (b : Fin 8) (c : Fin 512) (k : Fin 19) (z : Fin 1) :
    val_main_v17 (F := Ideal) x0 x1 (ix4 b c k z) = Cert.Pool.refCtx (Pof x1) (Fof x0) b k c := by
  have e : idx_main_v16 (idx_main_v17 (ix4 b c k z)) = ix3 b k c :=
    funext fun a => Fin.ext (by match a with | ⟨0, _⟩ => rfl | ⟨1, _⟩ => rfl | ⟨2, _⟩ => rfl)
  rw [val_main_v17_apply, val_main_v16_apply, e, ref_ctx]

end Cert.RefSide

end
-- ==== Proof.Finite.lean ====
/-
  Finiteness of the inputs, read off the precondition. The predicate is
  `all (|feats| < +∞) ∧ all (|probs| < +∞)` over the two f32 arrays, and the precondition states that its
  one-element `i1` result is 1. Read at the ideal values (every entry an extended real): the conjunction of
  two `i1` words is 1 only when both are; a reduction by `and` over every axis is 1 only when every element
  is; the element `|x| < +∞` is `max x (-x) < ⊤`, which fails at `⊤` and at `⊥` (where `-⊥ = ⊤`), so `x` is
  the image of a real number.
-/
import proofs.«106281_j5669356833568_2_alg».proof.Pre_finite_inputs
import Idealize.ShloMosaic.PureOps.Ideal
import Idealize.ShloMosaic.PureOps.Ideal.Laws
import Idealize.ShloMosaic.Lib.ReduceAll
import Idealize.ShloMosaic.Lib.ValueIdx

namespace Cert.Finite

open Idealize.ShloMosaic

/-- An extended real whose absolute value `max x (-x)` lies strictly below `+∞` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The element test of the predicate, `|x| < +∞` as an `i1` word equal to 1, says `x` is a real number:
    the pattern `0x7F800000` denotes `+∞ = ⊤`, the absolute value is `max x (-x)`, and the comparison is the
    strict order of the extended reals. -/
theorem real_of_test (x : Ideal .f32)
    (h : FloatOps.cmpf (F := Ideal) .olt (FloatOps.hostAbsf x) (FloatOps.ofBits .f32 0x7F800000#32) = 1#1) :
    ∃ r : ℝ, x = (r : EReal) := by
  have htop : Ideal.ofBits .f32 0x7F800000#32 = ⊤ := by simp [Ideal.ofBits, Ideal.ieee]
  rw [Ideal.hostAbsf_def, Ideal.absf_def, Ideal.ofBits_def, htop, Ideal.cmpf_def] at h
  refine real_of_abs_lt_top x ?_
  by_contra hn
  have h0 : Ideal.cmp .olt (max x (-x)) ⊤ = 0#1 := by
    show BitVec.ofBool (decide (max x (-x) < ⊤)) = 0#1
    rw [decide_eq_false hn]; rfl
  rw [h0] at h
  exact absurd h (by decide)

/-- The result shape of a reduction over every axis has exactly one index. -/
instance subsingleton_S_ : Subsingleton Cert.Pre_finite_inputs.S_.Idx := ⟨fun a b => funext fun d => d.elim0⟩

/-- Under the precondition every entry of both arrays is a real number. -/
theorem finite_of_pre [Cert.Pre_finite_inputs.Facts]
    (x0 : (⟨Cert.Pre_finite_inputs.S8x512x128x128, .f32⟩ : BufTy).Contents (Elt Ideal))
    (x1 : (⟨Cert.Pre_finite_inputs.S8x19x128x128, .f32⟩ : BufTy).Contents (Elt Ideal))
    (h : Cert.Pre_finite_inputs.fn (F := Ideal) x0 x1 = (fun _ => 1#1)) :
    (∀ i, ∃ r : ℝ, x0 i = (r : EReal)) ∧ (∀ i, ∃ r : ℝ, x1 i = (r : EReal)) := by
  have h0 := congrFun h ValueIdx.ix0
  dsimp only [Cert.Pre_finite_inputs.fn] at h0
  obtain ⟨ha, hb⟩ := IntOp.andi_eq_one.1 h0
  exact ⟨fun i => real_of_test (x0 i) (Host.reduce_andi_all _ _ _ _ _ ha i),
    fun i => real_of_test (x1 i) (Host.reduce_andi_all _ _ _ _ _ hb i)⟩

end Cert.Finite
-- ==== Proof.Glue.lean ====
/-
  The two programs' views of the inputs agree. Each program reshapes an argument array `[8, C, 128, 128]` into
  `[8, C, 16384]`; the two reshapes are one function, so the scores and the features the grid's blocks are cut from
  are the scores and the features of the direct form. A reshape's entry is an entry of its operand, so under the
  precondition every score and every feature is a real number.
-/
import proofs.«106281_j5669356833568_2_alg».proof.Proof.Blocks
import proofs.«106281_j5669356833568_2_alg».proof.Proof.RefSide
import proofs.«106281_j5669356833568_2_alg».proof.Proof.Finite
import proofs.«106281_j5669356833568_2_alg».proof.Defs
import proofs.«106281_j5669356833568_2_alg».proof.Proof.Gen.Pre_finite_inputs

set_option maxRecDepth 16384

noncomputable section

namespace Cert.Glue

open Idealize.ShloMosaic Idealize.ShloMosaic.TcCoe Idealize.SL.Sem
open Cert.KernelIdeal Cert.KernelIdeal.Gen Idealize.ShloMosaic.ValueIdx

variable (m : (ℓ : Loc nD τ sig) → Buf (Elt Ideal) ℓ)

/-- The scores the grid's blocks are cut from are the direct form's scores of the same argument array. -/
theorem Pk_eq (c : Dev nD) (b : Fin 8) (k : Fin 19) (s : Fin 16384) :
    (V m c main_v1 : S8x19x16384.Idx → EReal) (ix3 b k s)
      = Cert.RefSide.Pof (m ((c : Thread nD τ).loc main_arg1)) b k s :=
  congrFun (Cert.Blocks.V_main_v1 m c) (ix3 b k s)

/-- The features the grid's blocks are cut from are the direct form's features of the same argument array. -/
theorem Fk_eq (c : Dev nD) (b : Fin 8) (cch : Fin 512) (s : Fin 16384) :
    (V m c main_v0 : S8x512x16384.Idx → EReal) (ix3 b cch s)
      = Cert.RefSide.Fof (m ((c : Thread nD τ).loc main_arg0)) b cch s :=
  congrFun (Cert.Blocks.V_main_v0 m c) (ix3 b cch s)

/-- Every score is an entry of the argument array: real when every entry is. -/
theorem Pof_real (x1 : (⟨Cert.ReferenceIdeal.S8x19x128x128, .f32⟩ : BufTy).Contents (Elt Ideal))
    (h : ∀ i, ∃ r : ℝ, x1 i = (r : EReal)) (b : Fin 8) (k : Fin 19) (s : Fin 16384) :
    ∃ r : ℝ, Cert.RefSide.Pof x1 b k s = (r : EReal) := by
  unfold Cert.RefSide.Pof
  rw [Cert.ReferenceIdeal.Read.val_main_v0_apply]
  exact h _

/-- Every feature is an entry of the argument array: real when every entry is. -/
theorem Fof_real (x0 : (⟨Cert.ReferenceIdeal.S8x512x128x128, .f32⟩ : BufTy).Contents (Elt Ideal))
    (h : ∀ i, ∃ r : ℝ, x0 i = (r : EReal)) (b : Fin 8) (cch : Fin 512) (s : Fin 16384) :
    ∃ r : ℝ, Cert.RefSide.Fof x0 b cch s = (r : EReal) := by
  unfold Cert.RefSide.Fof
  rw [Cert.ReferenceIdeal.Read.val_main_v1_apply]
  exact h _

/-- Under the precondition every score and every feature of every device is a real number. -/
theorem pre_real [Cert.Pre_finite_inputs.Facts] (hpre : Cert.Pre_KernelIdeal m) (c : Dev nD) :
    (∀ (b : Fin 8) (k : Fin 19) (s : Fin 16384), ∃ r : ℝ,
        Cert.RefSide.Pof (m ((c : Thread nD τ).loc main_arg1)) b k s = (r : EReal))
      ∧ (∀ (b : Fin 8) (cch : Fin 512) (s : Fin 16384), ∃ r : ℝ,
        Cert.RefSide.Fof (m ((c : Thread nD τ).loc main_arg0)) b cch s = (r : EReal)) := by
  obtain ⟨h0, h1⟩ := Cert.Finite.finite_of_pre _ _ (hpre c)
  exact ⟨Pof_real _ h1, Fof_real _ h0⟩

end Cert.Glue

end
-- ==== Proof.Algebraic.lean ====
/-
  The two idealised programs agree.

  Run from memories that agree on the two arguments, the kernel program's result array is, entry (b, c, k, 0), the
  pooled feature of channel c under class k's softmax weights in batch entry b, and so is the reference's: the kernel's
  by its frame run read at the result (the output blocks of the second halves, re-laid by the two host operations after
  the region), the reference's by its straight-line run read one operation at a time. The precondition makes every
  score and feature a real number, which is what the streamed form needs to equal the direct one.
-/
import proofs.«106281_j5669356833568_2_alg».proof.Defs
import proofs.«106281_j5669356833568_2_alg».proof.Proof.Gen.KernelIdeal
import proofs.«106281_j5669356833568_2_alg».proof.Proof.Gen.ReferenceIdeal
import proofs.«106281_j5669356833568_2_alg».proof.Proof.Gen.Pre_finite_inputs
import proofs.«106281_j5669356833568_2_alg».proof.Proof.Gen.ReferenceIdeal.Run
import proofs.«106281_j5669356833568_2_alg».proof.Proof.Gen.ReferenceIdeal.Read
import proofs.«106281_j5669356833568_2_alg».proof.Proof.KIValue
import proofs.«106281_j5669356833568_2_alg».proof.Proof.Glue
import proofs.«106281_j5669356833568_2_alg».proof.Proof.RefSide

set_option maxRecDepth 16384

noncomputable section

namespace Cert.Proof

open Idealize.ShloMosaic Idealize.ShloMosaic.TcCoe Idealize.SL.Sem Idealize.ShloMosaic.ValueIdx

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.ReferenceIdeal.Read.val_main_v17 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨?_, ?_, ?_⟩) (Cert.KernelIdeal.Body.run_main (F := Ideal) m ρ)
    · have hv := (h c).2 Cert.KernelIdeal.main_v4 (Pipeline.mem_restRefs_of Cert.KernelIdeal.main_v4 (by decide) (by decide))
      refine hv.trans ?_
      funext i
      obtain ⟨b, cc, k, z, rfl⟩ : ∃ (b : Fin 8) (cc : Fin 512) (k : Fin 19) (z : Fin 1), i = ix4 b cc k z := ⟨i 0, i 1, i 2, i 3, eq_ix4 i⟩
      have hr := Cert.Glue.pre_real m hpre c
      have eP : Cert.KernelIdeal.Body.Pk m c = Cert.RefSide.Pof (m ((c : Thread Cert.KernelIdeal.nD Cert.KernelIdeal.τ).loc Cert.KernelIdeal.main_arg1)) :=
        funext fun b => funext fun k => funext fun s => Cert.Glue.Pk_eq m c b k s
      have eF : Cert.KernelIdeal.Body.Fk m c = Cert.RefSide.Fof (m ((c : Thread Cert.KernelIdeal.nD Cert.KernelIdeal.τ).loc Cert.KernelIdeal.main_arg0)) :=
        funext fun b => funext fun cch => funext fun s => Cert.Glue.Fk_eq m c b cch s
      refine (Cert.KernelIdeal.Body.kernel_result m c (by rw [eP]; exact hr.1) (by rw [eF]; exact hr.2) b cc k z).trans ?_
      rw [eP, eF]
      exact (Cert.RefSide.ref_result _ _ b cc k z).symm
    · exact ((h c).2 Cert.KernelIdeal.main_arg0 (Pipeline.mem_restRefs_of Cert.KernelIdeal.main_arg0 (by decide) (by decide))).trans
        (Cert.KernelIdeal.Gen.W_main_arg0 m (Cert.KernelIdeal.Body.dats m) c)
    · exact ((h c).2 Cert.KernelIdeal.main_arg1 (Pipeline.mem_restRefs_of Cert.KernelIdeal.main_arg1 (by decide) (by decide))).trans
        (Cert.KernelIdeal.Gen.W_main_arg1 m (Cert.KernelIdeal.Body.dats m) c)
  · refine (θ_run Cert.ReferenceIdeal.defs _ _).mono (fun _ h c => ⟨?_, (h c).2⟩) (Cert.ReferenceIdeal.Value.run (F := Ideal) m' ρ')
    rw [(h c).1, Cert.ReferenceIdeal.Read.val_main_v17_eq, (hagree c).1, (hagree c).2]

end Cert.Proof

end
-- ==== Proof.lean ====
/-
  Softmax pooling of a feature map, streamed against direct.

  For every batch entry and class the kernel meets the 16384 spatial scores in two halves, keeping a running maximum,
  a running denominator and a running numerator that it rescales by exp (m_old − m_new) when the maximum moves, and
  divides once at the end; the reference subtracts the global maximum, exponentiates, normalises every weight by the
  sum and contracts the weights with the features. Over the extended reals with finite inputs both are
  ∑ₛ exp (pₛ − M) · fₛ / ∑ₛ exp (pₛ − M): the rescalings telescope (exp (m₀ − M) · exp (p − m₀) = exp (p − M)), the
  denominator is a positive real, and a quotient of a finite sum is the sum of the quotients.

  The three frames: the two kernels' bodies are run symbolically once per case (first half / second half of a batch
  entry) and the launch theorem carries them over the grid; the reference is straight-line host code. The one rewrite of
  the idealisation (a widening after a narrowing is the identity on the reals) is the library's statement.
-/
import proofs.«106281_j5669356833568_2_alg».proof.Defs
import proofs.«106281_j5669356833568_2_alg».proof.Proof.Gen.Kernel
import proofs.«106281_j5669356833568_2_alg».proof.Proof.Gen.KernelIdeal
import proofs.«106281_j5669356833568_2_alg».proof.Proof.Gen.ReferenceIdeal
import proofs.«106281_j5669356833568_2_alg».proof.Proof.Gen.Pre_finite_inputs
import proofs.«106281_j5669356833568_2_alg».proof.Proof.Gen.ReferenceIdeal.Run
import proofs.«106281_j5669356833568_2_alg».proof.Proof.Gen.ReferenceIdeal.Read
import proofs.«106281_j5669356833568_2_alg».proof.Proof.KFrame
import proofs.«106281_j5669356833568_2_alg».proof.Proof.KIFrame
import proofs.«106281_j5669356833568_2_alg».proof.Proof.Algebraic
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Body.frame m ρ

theorem frame_ki : Cert.frame_KernelIdeal (hKernelIdeal := Cert.KernelIdeal.Gen.facts) (hPre_finite_inputs := Cert.Pre_finite_inputs.Gen.facts) :=
  fun m ρ _ => Cert.KernelIdeal.Body.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Narrowing to bf16 and widening back is the identity on the extended reals. -/
theorem preserves : Cert.preserves_Kernel_KernelIdeal :=
  IdealRules.truncf_extf.statement Cert.KernelIdeal.S19x8192 .f32 .bf16

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
